-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x640000 : Shape := ⟨2, ![2, 640000]⟩
abbrev S40000 : Shape := ⟨1, ![40000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S40000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S2x640000 32) (main_arg8 : IVec S40000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S40000x128 : Shape := ⟨2, ![40000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x640000 : Shape := ⟨2, ![2, 640000]⟩
abbrev S40000 : Shape := ⟨1, ![40000]⟩
abbrev S1x640000 : Shape := ⟨2, ![1, 640000]⟩
abbrev S640000 : Shape := ⟨1, ![640000]⟩
abbrev S2000x128 : Shape := ⟨2, ![2000, 128]⟩
abbrev S_ : Shape := ⟨0, ![]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩
abbrev S2000x1 : Shape := ⟨2, ![2000, 1]⟩
abbrev S64x128 : Shape := ⟨2, ![64, 128]⟩
abbrev S64x1 : Shape := ⟨2, ![64, 1]⟩
abbrev S1x64 : Shape := ⟨2, ![1, 64]⟩
abbrev S64x64 : Shape := ⟨2, ![64, 64]⟩

abbrev nBuf : Space → Nat
  | .hbm => 131
  | .vmem => 32
  | .smem => 0
  | _ => 0

abbrev hbmTy0_0 (i : Nat) : BufTy := match i % 128 with
  | 0 => ⟨S40000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S2x640000, .i32⟩
  | 8 => ⟨S40000, .i32⟩
  | 9 => ⟨S1x640000, .i32⟩
  | 10 => ⟨S640000, .i32⟩
  | 11 => ⟨S1x640000, .i32⟩
  | 12 => ⟨S640000, .i32⟩
  | 13 => ⟨S40000x128, .f32⟩
  | 14 => ⟨S_, .f32⟩
  | 15 => ⟨S640000, .f32⟩
  | 16 => ⟨S_, .f32⟩
  | 17 => ⟨S40000, .f32⟩
  | 18 => ⟨S640000x1, .i32⟩
  | 19 => ⟨S40000, .f32⟩
  | 20 => ⟨S_, .f32⟩
  | 21 => ⟨S40000, .f32⟩
  | 22 => ⟨S40000, .f32⟩
  | 23 => ⟨S40000, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000, .f32⟩
  | 42 => ⟨S640000, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x128, .f32⟩
  | 52 => ⟨S640000x1, .f32⟩
  | 53 => ⟨S640000x128, .f32⟩
  | 54 => ⟨S640000x128, .f32⟩
  | 55 => ⟨S_, .f32⟩
  | 56 => ⟨S40000x128, .f32⟩
  | 57 => ⟨S640000x1, .i32⟩
  | 58 => ⟨S40000x128, .f32⟩
  | 59 => ⟨S40000, .f32⟩
  | 60 => ⟨S40000x1, .f32⟩
  | 61 => ⟨S1x128, .f32⟩
  | 62 => ⟨S40000x128, .f32⟩
  | 63 => ⟨S40000x128, .f32⟩
  | 64 => ⟨S_, .f32⟩
  | 65 => ⟨S640000, .f32⟩
  | 66 => ⟨S_, .f32⟩
  | 67 => ⟨S40000, .f32⟩
  | 68 => ⟨S640000x1, .i32⟩
  | 69 => ⟨S40000, .f32⟩
  | 70 => ⟨S_, .f32⟩
  | 71 => ⟨S40000, .f32⟩
  | 72 => ⟨S40000, .f32⟩
  | 73 => ⟨S40000, .f32⟩
  | 74 => ⟨S_, .i32⟩
  | 75 => ⟨S640000, .i32⟩
  | 76 => ⟨S640000, .i1⟩
  | 77 => ⟨S_, .i32⟩
  | 78 => ⟨S640000, .i32⟩
  | 79 => ⟨S640000, .i32⟩
  | 80 => ⟨S640000, .i32⟩
  | 81 => ⟨S640000x1, .i32⟩
  | 82 => ⟨S640000, .f32⟩
  | 83 => ⟨S_, .i32⟩
  | 84 => ⟨S640000, .i32⟩
  | 85 => ⟨S640000, .i1⟩
  | 86 => ⟨S_, .i32⟩
  | 87 => ⟨S640000, .i32⟩
  | 88 => ⟨S640000, .i32⟩
  | 89 => ⟨S640000, .i32⟩
  | 90 => ⟨S640000x1, .i32⟩
  | 91 => ⟨S640000, .f32⟩
  | 92 => ⟨S640000, .f32⟩
  | 93 => ⟨S_, .i32⟩
  | 94 => ⟨S640000, .i32⟩
  | 95 => ⟨S640000, .i1⟩
  | 96 => ⟨S_, .i32⟩
  | 97 => ⟨S640000, .i32⟩
  | 98 => ⟨S640000, .i32⟩
  | 99 => ⟨S640000, .i32⟩
  | 100 => ⟨S640000x1, .i32⟩
  | 101 => ⟨S640000x128, .f32⟩
  | 102 => ⟨S640000x1, .f32⟩
  | 103 => ⟨S640000x128, .f32⟩
  | 104 => ⟨S640000x128, .f32⟩
  | 105 => ⟨S_, .f32⟩
  | 106 => ⟨S40000x128, .f32⟩
  | 107 => ⟨S640000x1, .i32⟩
  | 108 => ⟨S40000x128, .f32⟩
  | 109 => ⟨S40000, .f32⟩
  | 110 => ⟨S40000x1, .f32⟩
  | 111 => ⟨S1x128, .f32⟩
  | 112 => ⟨S40000x128, .f32⟩
  | 113 => ⟨S_, .f32⟩
  | 114 => ⟨S64x128, .f32⟩
  | 115 => ⟨S40000x1, .i32⟩
  | 116 => ⟨S64x128, .f32⟩
  | 117 => ⟨S_, .f32⟩
  | 118 => ⟨S40000, .f32⟩
  | 119 => ⟨S_, .f32⟩
  | 120 => ⟨S64, .f32⟩
  | 121 => ⟨S40000x1, .i32⟩
  | 122 => ⟨S64, .f32⟩
  | 123 => ⟨S_, .f32⟩
  | 124 => ⟨S64, .f32⟩
  | 125 => ⟨S64, .f32⟩
  | 126 => ⟨S64x1, .f32⟩
  | 127 => ⟨S64x128, .f32⟩
  | _ => ⟨S40000x128, .f32⟩

abbrev hbmTy0_1 (i : Nat) : BufTy := match i % 128 with
  | 0 => ⟨S64x128, .f32⟩
  | 1 => ⟨S1x64, .f32⟩
  | 2 => ⟨S64x64, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S64x128, .f32⟩
  | .local _ .vmem, ⟨29, _⟩ => ⟨S128x64, .f32⟩
  | .local _ .vmem, ⟨30, _⟩ => ⟨S1x64, .f32⟩
  | .local _ .vmem, ⟨31, _⟩ => ⟨S64x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_15 : Ref sig .tc := ⟨.hbm, 93, rfl⟩
abbrev main_v67 : Ref sig .tc := ⟨.hbm, 94, rfl⟩
abbrev main_v68 : Ref sig .tc := ⟨.hbm, 95, rfl⟩
abbrev main_c_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_19 : Ref sig .tc := ⟨.hbm, 117, rfl⟩
abbrev main_v87 : Ref sig .tc := ⟨.hbm, 118, rfl⟩
abbrev main_cst_20 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_21 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  shapeCasts_S40000_S40000x1 : S40000.ShapeCasts S40000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  bcast_S_S64x128 : S_.BroadcastsInDim S64x128 (![] : Fin 0 → Fin S64x128.rank)
  bcast_S40000_S40000x1_0 : S40000.BroadcastsInDim S40000x1 (![0] : Fin 1 → Fin S40000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64_S1x64 : S64.ShapeCasts S1x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  reduces_S64x64_S64 : S64x64.Reduces [1] S64
  shapeCasts_S64_S64x1 : S64.ShapeCasts S64x1
  broadcasts_S64x1_S64x64 : S64x1.Broadcasts S64x64
  inb_S64x64_S64x64_0_0 : ∀ a, (![0, 0] : Fin 2 → Nat) a + S64x64.size a ≤ S64x64.size a
  h_S64x64 : 0 < S64x64.numel
  dot_S2000x128_S128x128_S2000x128_1_0_0_1_n_n_wf : DotDims.WF S2000x128 S128x128 S2000x128 [1] [0] [0] [1] [] []
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S40000x128.size a
  hwx0_2 : ∀ i : grid0.Coords, EltTy.bits .f32 = 32 ∨ (Rect.block (s := S40000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S40000x128.size a
  hwx1_1 : ∀ i : grid1.Coords, EltTy.bits .f32 = 32 ∨ (Rect.block (s := S40000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S40000x1.size a
  hwx1_2 : ∀ i : grid1.Coords, EltTy.bits .f32 = 32 ∨ (Rect.block (s := S40000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S40000x128.size a
  hwx1_4 : ∀ i : grid1.Coords, EltTy.bits .f32 = 32 ∨ (Rect.block (s := S40000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S40000x128.size a
  hwx2_2 : ∀ i : grid2.Coords, EltTy.bits .f32 = 32 ∨ (Rect.block (s := S40000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S40000x128.size a
  hwx3_0 : ∀ i : grid3.Coords, EltTy.bits .f32 = 32 ∨ (Rect.block (s := S40000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S40000x128.size a
  hwx3_1 : ∀ i : grid3.Coords, EltTy.bits .f32 = 32 ∨ (Rect.block (s := S40000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S40000x1.size a
  hwx3_2 : ∀ i : grid3.Coords, EltTy.bits .f32 = 32 ∨ (Rect.block (s := S40000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S40000x128.size a
  hwx3_4 : ∀ i : grid3.Coords, EltTy.bits .f32 = 32 ∨ (Rect.block (s := S40000x128) S2000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v95) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S64x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S40000x128 : Shape := ⟨2, ![40000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x640000 : Shape := ⟨2, ![2, 640000]⟩
abbrev S40000 : Shape := ⟨1, ![40000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩

abbrev nBuf : Space → Nat
  | .hbm => 157
  | .vmem => 0
  | .smem => 0
  | _ => 0

abbrev hbmTy0_0 (i : Nat) : BufTy := match i % 128 with
  | 0 => ⟨S40000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S2x640000, .i32⟩
  | 8 => ⟨S40000, .i32⟩
  | 9 => ⟨S1x640000, .i32⟩
  | 10 => ⟨S640000, .i32⟩
  | 11 => ⟨S1x640000, .i32⟩
  | 12 => ⟨S640000, .i32⟩
  | 13 => ⟨S40000x128, .f32⟩
  | 14 => ⟨S_, .f32⟩
  | 15 => ⟨S640000, .f32⟩
  | 16 => ⟨S_, .f32⟩
  | 17 => ⟨S40000, .f32⟩
  | 18 => ⟨S640000x1, .i32⟩
  | 19 => ⟨S40000, .f32⟩
  | 20 => ⟨S_, .f32⟩
  | 21 => ⟨S40000, .f32⟩
  | 22 => ⟨S40000, .f32⟩
  | 23 => ⟨S40000, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000, .f32⟩
  | 42 => ⟨S640000, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x128, .f32⟩
  | 52 => ⟨S640000x1, .f32⟩
  | 53 => ⟨S640000x128, .f32⟩
  | 54 => ⟨S640000x128, .f32⟩
  | 55 => ⟨S_, .f32⟩
  | 56 => ⟨S40000x128, .f32⟩
  | 57 => ⟨S640000x1, .i32⟩
  | 58 => ⟨S40000x128, .f32⟩
  | 59 => ⟨S40000, .f32⟩
  | 60 => ⟨S40000x1, .f32⟩
  | 61 => ⟨S40000x128, .f32⟩
  | 62 => ⟨S40000x128, .f32⟩
  | 63 => ⟨S40000x128, .f32⟩
  | 64 => ⟨S1x128, .f32⟩
  | 65 => ⟨S40000x128, .f32⟩
  | 66 => ⟨S40000x128, .f32⟩
  | 67 => ⟨S_, .f32⟩
  | 68 => ⟨S40000x128, .f32⟩
  | 69 => ⟨S40000x128, .f32⟩
  | 70 => ⟨S40000x128, .f32⟩
  | 71 => ⟨S_, .f32⟩
  | 72 => ⟨S640000, .f32⟩
  | 73 => ⟨S_, .f32⟩
  | 74 => ⟨S40000, .f32⟩
  | 75 => ⟨S640000x1, .i32⟩
  | 76 => ⟨S40000, .f32⟩
  | 77 => ⟨S_, .f32⟩
  | 78 => ⟨S40000, .f32⟩
  | 79 => ⟨S40000, .f32⟩
  | 80 => ⟨S40000, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000, .f32⟩
  | 90 => ⟨S_, .i32⟩
  | 91 => ⟨S640000, .i32⟩
  | 92 => ⟨S640000, .i1⟩
  | 93 => ⟨S_, .i32⟩
  | 94 => ⟨S640000, .i32⟩
  | 95 => ⟨S640000, .i32⟩
  | 96 => ⟨S640000, .i32⟩
  | 97 => ⟨S640000x1, .i32⟩
  | 98 => ⟨S640000, .f32⟩
  | 99 => ⟨S640000, .f32⟩
  | 100 => ⟨S_, .i32⟩
  | 101 => ⟨S640000, .i32⟩
  | 102 => ⟨S640000, .i1⟩
  | 103 => ⟨S_, .i32⟩
  | 104 => ⟨S640000, .i32⟩
  | 105 => ⟨S640000, .i32⟩
  | 106 => ⟨S640000, .i32⟩
  | 107 => ⟨S640000x1, .i32⟩
  | 108 => ⟨S640000x128, .f32⟩
  | 109 => ⟨S640000x1, .f32⟩
  | 110 => ⟨S640000x128, .f32⟩
  | 111 => ⟨S640000x128, .f32⟩
  | 112 => ⟨S_, .f32⟩
  | 113 => ⟨S40000x128, .f32⟩
  | 114 => ⟨S640000x1, .i32⟩
  | 115 => ⟨S40000x128, .f32⟩
  | 116 => ⟨S40000, .f32⟩
  | 117 => ⟨S40000x1, .f32⟩
  | 118 => ⟨S40000x128, .f32⟩
  | 119 => ⟨S40000x128, .f32⟩
  | 120 => ⟨S40000x128, .f32⟩
  | 121 => ⟨S1x128, .f32⟩
  | 122 => ⟨S40000x128, .f32⟩
  | 123 => ⟨S40000x128, .f32⟩
  | 124 => ⟨S_, .f32⟩
  | 125 => ⟨S40000x128, .f32⟩
  | 126 => ⟨S40000x128, .f32⟩
  | 127 => ⟨S_, .f32⟩
  | _ => ⟨S40000x128, .f32⟩

abbrev hbmTy0_1 (i : Nat) : BufTy := match i % 128 with
  | 0 => ⟨S64x128, .f32⟩
  | 1 => ⟨S40000x1, .i32⟩
  | 2 => ⟨S64x128, .f32⟩
  | 3 => ⟨S_, .f32⟩
  | 4 => ⟨S40000, .f32⟩
  | 5 => ⟨S_, .f32⟩
  | 6 => ⟨S64, .f32⟩
  | 7 => ⟨S40000x1, .i32⟩
  | 8 => ⟨S64, .f32⟩
  | 9 => ⟨S_, .f32⟩
  | 10 => ⟨S64, .f32⟩
  | 11 => ⟨S64, .f32⟩
  | 12 => ⟨S64x1, .f32⟩
  | 13 => ⟨S64x128, .f32⟩
  | 14 => ⟨S64x128, .f32⟩
  | 15 => ⟨S64x64, .f32⟩
  | 16 => ⟨S1x64, .f32⟩
  | 17 => ⟨S64x64, .f32⟩
  | 18 => ⟨S64x64, .f32⟩
  | 19 => ⟨S64x64, .f32⟩
  | 20 => ⟨S_, .f32⟩
  | 21 => ⟨S64, .f32⟩
  | 22 => ⟨S64x1, .f32⟩
  | 23 => ⟨S64x1, .f32⟩
  | 24 => ⟨S_, .f32⟩
  | 25 => ⟨S64x1, .f32⟩
  | 26 => ⟨S64x1, .f32⟩
  | 27 => ⟨S64x64, .f32⟩
  | 28 => ⟨S64x64, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_call2_v0 : Ref sig .tc := ⟨.hbm, 147, rfl⟩
abbrev main_call2_cst : Ref sig .tc := ⟨.hbm, 148, rfl⟩
abbrev main_call2_v1 : Ref sig .tc := ⟨.hbm, 149, rfl⟩
abbrev main_call2_v2 : Ref sig .tc := ⟨.hbm, 150, rfl⟩
abbrev main_v110 : Ref sig .tc := ⟨.hbm, 151, rfl⟩
abbrev main_cst_22 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  reducesTo_S64x64_S64_d1 : S64x64.ReducesTo [1] S64
  h_S_ : 0 < S_.numel
  bcast_S_S64x1 : S_.BroadcastsInDim S64x1 (![] : Fin 0 → Fin S64x1.rank)
  bcast_S64x1_S64x64_0_1 : S64x1.BroadcastsInDim S64x64 (![0, 1] : Fin 2 → Fin S64x64.rank)
  dot_S40000x128_S128x128_S40000x128_1_0_0_1_n_n_wf : DotDims.WF S40000x128 S128x128 S40000x128 [1] [0] [0] [1] [] []
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x64_S64x64_1_0_0_1_n_n_wf : DotDims.WF S64x128 S128x64 S64x64 [1] [0] [0] [1] [] []

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.KernelRun.lean ====
/-
  The idealized kernel's run, with its result named.

  The program is five pallas regions among stretches of host operations.  The buffer contents at each boundary
  between two segments are a fold from the launch memory: a host stretch applies its operations' functions, a
  region leaves each of its arrays at what its write-backs fold to and every other buffer untouched.  Every weakly
  fair execution terminates with every unscoped buffer at the last boundary's contents; read at the result buffer
  and at the nine argument buffers this gives the run below: the result is the last boundary's contents at the
  result buffer, the arguments end as launched.  Stated at any float instance, like the frame.
-/
import proofs.«151292_j49538152792352_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents there, and the nine argument buffers end as launched. -/
theorem run_named : θ_run defs (onTc (τ := τ) (main (F := F))) ⟨m, fun _ => 0, ρ⟩ (fun r => ∀ c : Dev nD,
      r.2.mem ((c.tc : Thread nD τ).loc main_v97) = W9 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v97 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Whole

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«151292_j49538152792352_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibLane.lean ====
/-
  A sum along the last axis of a matrix, read at a row: the lane reduction of an `[R, C]` vector into `[R]`, from the zero
  accumulator, is at row `r` the sum over the `C` columns of the entries of that row — generic in the extents.
-/
import Idealize.ShloMosaic.Lib.ValueIdx
import Idealize.ShloMosaic.PureOps.Ideal.Laws

noncomputable section

namespace Cert.Lib.Lane

open Idealize.ShloMosaic Idealize.ShloMosaic.ValueIdx

/-- The reduced index `r` with column `k` put back is `(r, k)`. -/
theorem lift_row {R C : ℕ} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- A float lane sum from the zero accumulator, at row `r`: the sum of that row's entries. -/
theorem laneSum_apply {R C : ℕ} (src : FVec Ideal ⟨2, ![R, C]⟩ .f32)
    (h : (⟨2, ![R, C]⟩ : Shape).Reduces [1] (⟨1, ![R]⟩ : Shape)) (hφ : FKind.Formats .f32)
    (hacc : (0x00000000#32 : BitVec 32) = 0x00000000#32) (r : Fin R) :
    multiReduction .add [1] (⟨1, ![R]⟩ : Shape) src 0x00000000#32 h hφ hacc (ix1 r) = ∑ k : Fin C, src (ix2 r k) := by
  refine (Ideal.multiReduction_add_single src 0x00000000#32 h hφ hacc (ix1 r)).trans ?_
  exact Finset.sum_congr rfl fun k _ => congrArg src (lift_row h r k)

end Cert.Lib.Lane

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibKeepdims.lean ====
/-
  Vectors re-laid around unit axes, read at an index, generic in the extents: a vector as a column ([a] as [a, 1]),
  a column repeated along its unit axis ([a, 1] as [a, b]), a vector under two leading unit axes and back
  ([a] as [1, 1, a]; [1, 1, a] as [a]), and a stack of single-row blocks flattened row-major ([g, 1, c] as [a, b]).
-/
import Idealize.ShloMosaic.Lib.Pipeline.Value
import Idealize.ShloMosaic.Lib.ValueIdx

namespace Cert.Layout

open Idealize.ShloMosaic Idealize.ShloMosaic.ValueIdx

variable {α : Type}

/-- An `[a]` vector cast to the column `[a, 1]` reads, at `(i, u)`, the operand at `i`. -/
theorem cast_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated to `[a, b]` reads, at `(i, j)`, the column at `(i, 0)`. -/
theorem bcast_col {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a]` vector under two leading unit axes reads, at `(u, u', i)`, the operand at `i`. -/
theorem cast_lead2 {a : ℕ} (x : (⟨1, ![a]⟩ : Shape).Idx → α) (h : (⟨1, ![a]⟩ : Shape).ShapeCasts ⟨3, ![1, 1, a]⟩)
    (u u' : Fin 1) (i : Fin a) : shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    rw [hu, hu']; omega)

/-- A `[1, 1, a]` vector with its unit axes dropped reads, at `i`, the operand at `(0, 0, i)`. -/
theorem cast_drop2 {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A stack `[g, 1, c]` of single-row blocks flattened row-major to `[a, b]`: entry `(r, s)` is entry `(t, 0, p)` of
    the stack whenever `r·b + s = t·c + p`. -/
theorem cast_stack {g c a b : ℕ} (x : (⟨3, ![g, 1, c]⟩ : Shape).Idx → α) (h : (⟨3, ![g, 1, c]⟩ : Shape).ShapeCasts ⟨2, ![a, b]⟩)
    (r : Fin a) (s : Fin b) (t : Fin g) (p : Fin c) (hrs : r.val * b + s.val = t.val * c + p.val) :
    shapeCast ⟨2, ![a, b]⟩ x h (ix2 r s) = x (ix3 t (0 : Fin 1) p) :=
  shapeCast_apply x h _ _ (by
    rw [Shape.rowMajor_val_three, Shape.rowMajor_val_two]
    show (t.val * 1 + 0) * c + p.val = r.val * b + s.val
    rw [Nat.mul_one, Nat.add_zero, hrs])

end Cert.Layout
-- ==== Proof.Layers.lean ====
/-
  A two-layer graph convolution with mean pooling and a normalized linear head, as whole-array functions
  at the ideal values (floats extended reals, every operation exact).

  * `dense x w` — node features times a weight matrix: entry (r, c) is the sum over k of x (r, k) · w (k, c).
  * `finish agg h d b` — a layer's closing step: entry (r, c) is max ((agg (r, c) + d r · h (r, c)) + b c, 0), the
    aggregated messages plus the self-loop term d r · h (r, c) plus the bias, rectified.
  * `head g wl bl` — the pooled features through a linear map, each row divided by the larger of its Euclidean
    norm and a fixed small constant: with lin (r, c) = (sum over k of g (r, k) · wl (k, c)) + bl c, entry (r, c)
    is lin (r, c) / max (sqrt (sum over k of lin (r, k)²), ε).
  Nothing here asks the numbers to be finite: each function is read off term by term, never rearranged.
-/
import proofs.«151292_j49538152792352_1_alg».proof.Proof.LibRowBlocks
import proofs.«151292_j49538152792352_1_alg».proof.Proof.LibLane
import proofs.«151292_j49538152792352_1_alg».proof.Proof.LibRows
import proofs.«151292_j49538152792352_1_alg».proof.Proof.LibKeepdims
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx

/-- An R × C matrix of extended reals. -/
abbrev Mat (R C : Nat) : Type := FVec Ideal ⟨2, ![R, C]⟩ .f32
/-- A vector of N extended reals. -/
abbrev Col (N : Nat) : Type := FVec Ideal ⟨1, ![N]⟩ .f32

/-- The word of the float zero. -/
abbrev zeroWord : BitVec 32 := 0x00000000#32
/-- The word of the small constant the norm is kept above (the float nearest 1e-12). -/
abbrev epsWord : BitVec 32 := 0x2B8CBCCC#32

/-- Node features times a weight matrix. -/
def dense (x : Mat 40000 128) (w : Mat 128 128) : Mat 40000 128 :=
  Host.dotGeneral (F := Ideal) (DotDims.plain 40000 128 128) none x w

/-- A layer's closing step: aggregated messages, plus the self-loop term, plus the bias, rectified. -/
def finish (agg h : Mat 40000 128) (d : Col 40000) (b : Col 128) : Mat 40000 128 := fun i =>
  max ((agg i + d (ix1 ⟨(i 0).val, (i 0).isLt⟩) * h i) + b (ix1 ⟨(i 1).val, (i 1).isLt⟩)) (Ideal.ofBits .f32 zeroWord)

theorem finish_apply (agg h : Mat 40000 128) (d : Col 40000) (b : Col 128) (r : Fin 40000) (q : Fin 128) :
    finish agg h d b (ix2 r q)
      = max ((agg (ix2 r q) + d (ix1 r) * h (ix2 r q)) + b (ix1 q)) (Ideal.ofBits .f32 zeroWord) := rfl

/-- The pooled features through the linear map, bias added. -/
def linear (g : Mat 64 128) (wl : Mat 128 64) (bl : Col 64) : Mat 64 64 := fun i =>
  Host.dotGeneral (F := Ideal) (DotDims.plain 64 128 64) none g wl i + bl (ix1 ⟨(i 1).val, (i 1).isLt⟩)

theorem linear_apply (g : Mat 64 128) (wl : Mat 128 64) (bl : Col 64) (r q : Fin 64) :
    linear g wl bl (ix2 r q) = Host.dotGeneral (F := Ideal) (DotDims.plain 64 128 64) none g wl (ix2 r q) + bl (ix1 q) := rfl

/-- The linear map's rows, each divided by the larger of its Euclidean norm and the small constant. -/
def head (g : Mat 64 128) (wl : Mat 128 64) (bl : Col 64) : Mat 64 64 := fun i =>
  Ideal.div (linear g wl bl i)
    (max (Ideal.sqrt (∑ k : Fin 64, linear g wl bl (ix2 ⟨(i 0).val, (i 0).isLt⟩ k) * linear g wl bl (ix2 ⟨(i 0).val, (i 0).isLt⟩ k)))
      (Ideal.ofBits .f32 epsWord))

theorem head_apply (g : Mat 64 128) (wl : Mat 128 64) (bl : Col 64) (r q : Fin 64) :
    head g wl bl (ix2 r q)
      = Ideal.div (linear g wl bl (ix2 r q))
          (max (Ideal.sqrt (∑ k : Fin 64, linear g wl bl (ix2 r k) * linear g wl bl (ix2 r k))) (Ideal.ofBits .f32 epsWord)) := rfl

end Cert.Gcn

end
-- ==== Proof.Dense0.lean ====
/-
  The first dense projection, from blocks to the whole array.

  The region runs over 20 grid points; point t multiplies rows 2000·t … 2000·t + 1999 of the node features by
  the whole weight matrix and writes the product back as rows 2000·t … 2000·t + 1999 of the result.  Entry (p, q)
  of the block's product is the sum over k of x (2000·t + p, k) · w (k, q): the whole product's entry at
  (2000·t + p, q).  The 20 blocks tile the 40000 rows, so the array the region leaves is the whole product.
-/
import proofs.«151292_j49538152792352_1_alg».proof.Proof.Gen.KernelIdeal.Frame
import proofs.«151292_j49538152792352_1_alg».proof.Proof.Layers
import Idealize.ShloMosaic.Lib.Pipeline.Value

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block's product at (p, q) is the whole product at (r, q), when row p of the block is row r of the features
    and the block's weights are the whole weight matrix. -/
theorem pay_rows (x : Mat 40000 128) (w : Mat 128 128) (xb : Vec Ideal S2000x128 .f32) (wb : Vec Ideal S128x128 .f32)
    (p : Fin 2000) (q : Fin 128) (r : Fin 40000)
    (hx : ∀ k : Fin 128, xb (ix2 p k) = x (ix2 r k)) (hw : ∀ k : Fin 128, wb (ix2 k q) = w (ix2 k q)) :
    k0_pay1 xb wb (ix2 p q) = dense x w (ix2 r q) := by
  unfold k0_pay1 dense
  exact Cert.Lib.RowBlocks.matmul_rows_eq_dotGeneral (B := 2000) none none x w
    (truncf .bf16 xb bitsLt_bf16_f32) (truncf .bf16 wb bitsLt_bf16_f32) p r q hx hw

/-- The same at an index of the block's literal shape. -/
theorem pay_at (x : Mat 40000 128) (w : Mat 128 128) (xb : Vec Ideal S2000x128 .f32) (wb : Vec Ideal S128x128 .f32)
    (y : S2000x128.Idx) (r : Fin 40000)
    (hx : ∀ k : Fin 128, xb (ix2 (y 0) k) = x (ix2 r k)) (hw : ∀ k : Fin 128, wb (ix2 k (y 1)) = w (ix2 k (y 1))) :
    k0_pay1 xb wb y = dense x w (ix2 r (y 1)) := by
  have hy := eq_ix2 y
  rw [hy]
  exact pay_rows x w xb wb (y 0) (y 1) r hx hw

/-- The printed index maps over the grid: the feature and result windows move one block of rows per point, the
    weight window stays. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal) (dense (V c main_arg0) (V c main_arg1)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := index_facts t
  funext j
  have ht : t.val < 20 := t.isLt
  have hj0 : (j 0).val < 2000 := (j 0).isLt
  have hj1 : (j 1).val < 128 := (j 1).isLt
  have hr : t.val * 2000 + (j 0).val < 40000 := by omega
  show k0_pay1 (iblk0 V c 0 t) (iblk0 V c 1 t) j
    = dense (V c main_arg0) (V c main_arg1) (((cfg0.win 2).blk t).view.emb j)
  have he : ((cfg0.win 2).blk t).view.emb j = ix2 (⟨t.val * 2000 + (j 0).val, hr⟩ : Fin 40000) (j 1) := by
    funext a; apply Fin.ext
    match a with
    | ⟨0, _⟩ => show win0_2.index t (0 : Fin 2) * 2000 + 1 * (j 0).val = t.val * 2000 + (j 0).val; omega
    | ⟨1, _⟩ => show win0_2.index t (1 : Fin 2) * 128 + 1 * (j 1).val = (j 1).val; omega
  rw [he]
  refine pay_at (V c main_arg0) (V c main_arg1) _ _ j ⟨t.val * 2000 + (j 0).val, hr⟩ (fun k => ?_) (fun k => ?_)
  · show V c main_arg0 (((cfg0.win 0).blk t).view.emb (ix2 (j 0) k)) = _
    refine congrArg (V c main_arg0) ?_
    funext a; apply Fin.ext
    match a with
    | ⟨0, _⟩ => show win0_0.index t (0 : Fin 2) * 2000 + 1 * (j 0).val = t.val * 2000 + (j 0).val; omega
    | ⟨1, _⟩ => show win0_0.index t (1 : Fin 2) * 128 + 1 * k.val = k.val; omega
  · show V c main_arg1 (((cfg0.win 1).blk t).view.emb (ix2 k (j 1))) = _
    refine congrArg (V c main_arg1) ?_
    funext a; apply Fin.ext
    match a with
    | ⟨0, _⟩ => show win0_1.index t (0 : Fin 2) * 128 + 1 * k.val = k.val; omega
    | ⟨1, _⟩ => show win0_1.index t (1 : Fin 2) * 128 + 1 * (j 1).val = (j 1).val; omega

/-- An index of the result array is in point t's block iff each coordinate is in the block's range on its axis. -/
theorem mem_blk (t : Fin cfg0.N) (i : S40000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- Row r of the result is in the block of point r / 2000. -/
theorem cover (i : S40000x128.Idx) : ∃ t : Fin cfg0.N, (cfg0.win 2).flush t = true ∧ i ∈ ((cfg0.win 2).blk t).view.set := by
  have hi0 : (i 0).val < 40000 := (i 0).isLt
  have hi1 : (i 1).val < 128 := (i 1).isLt
  let t : Fin cfg0.N := ⟨(i 0).val / 2000, by show (i 0).val / 2000 < 20; omega⟩
  obtain ⟨e0, e1, e2, e3, e4, e5⟩ := index_facts t
  have e4' : win0_2.index t (0 : Fin 2) = (i 0).val / 2000 := e4
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The array the region leaves is the whole product of the arrays it found. -/
theorem final (c : Dev nD) : (dat0 V c).arrAt 2 cfg0.N = dense (V c main_arg0) (V c main_arg1) :=
  (dat0 V c).arrAt_eq_of_cover 2 (dense (V c main_arg0) (V c main_arg1)) (fun t _ => flushed_eq V c t) cover

end Cert.KernelIdeal.Dense0

end
-- ==== Proof.Dense2.lean ====
/-
  The second dense projection, from blocks to the whole array.

  The region runs over 20 grid points; point t multiplies rows 2000·t … 2000·t + 1999 of the first layer's output by
  the second weight matrix and writes the product back as rows 2000·t … 2000·t + 1999 of the result.  Entry (p, q)
  of the block's product is the sum over k of x (2000·t + p, k) · w (k, q): the whole product's entry at
  (2000·t + p, q).  The 20 blocks tile the 40000 rows, so the array the region leaves is the whole product.
-/
import proofs.«151292_j49538152792352_1_alg».proof.Proof.Gen.KernelIdeal.Frame
import proofs.«151292_j49538152792352_1_alg».proof.Proof.Layers
import Idealize.ShloMosaic.Lib.Pipeline.Value

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block's product at (p, q) is the whole product at (r, q), when row p of the block is row r of the features
    and the block's weights are the whole weight matrix. -/
theorem pay_rows (x : Mat 40000 128) (w : Mat 128 128) (xb : Vec Ideal S2000x128 .f32) (wb : Vec Ideal S128x128 .f32)
    (p : Fin 2000) (q : Fin 128) (r : Fin 40000)
    (hx : ∀ k : Fin 128, xb (ix2 p k) = x (ix2 r k)) (hw : ∀ k : Fin 128, wb (ix2 k q) = w (ix2 k q)) :
    k2_pay1 xb wb (ix2 p q) = dense x w (ix2 r q) := by
  unfold k2_pay1 dense
  rw [shapeCast_self]
  exact Cert.Lib.RowBlocks.matmul_rows_eq_dotGeneral (B := 2000) none none x w
    (truncf .bf16 xb bitsLt_bf16_f32) (truncf .bf16 wb bitsLt_bf16_f32) p r q hx hw

/-- The same at an index of the block's literal shape. -/
theorem pay_at (x : Mat 40000 128) (w : Mat 128 128) (xb : Vec Ideal S2000x128 .f32) (wb : Vec Ideal S128x128 .f32)
    (y : S2000x128.Idx) (r : Fin 40000)
    (hx : ∀ k : Fin 128, xb (ix2 (y 0) k) = x (ix2 r k)) (hw : ∀ k : Fin 128, wb (ix2 k (y 1)) = w (ix2 k (y 1))) :
    k2_pay1 xb wb y = dense x w (ix2 r (y 1)) := by
  have hy := eq_ix2 y
  rw [hy]
  exact pay_rows x w xb wb (y 0) (y 1) r hx hw

/-- The printed index maps over the grid: the feature and result windows move one block of rows per point, the
    weight window stays. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed_eq (c : Dev nD) (t : Fin cfg2.N) :
    (dat2 V c).flushed 2 t = ((cfg2.win 2).blk t).view.read (Elt Ideal) (dense (V c main_v43) (V c main_arg3)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x128) origin]
  obtain ⟨e0, e1, e2, e3, e4, e5⟩ := index_facts t
  funext j
  have ht : t.val < 20 := t.isLt
  have hj0 : (j 0).val < 2000 := (j 0).isLt
  have hj1 : (j 1).val < 128 := (j 1).isLt
  have hr : t.val * 2000 + (j 0).val < 40000 := by omega
  show k2_pay1 (iblk2 V c 0 t) (iblk2 V c 1 t) j
    = dense (V c main_v43) (V c main_arg3) (((cfg2.win 2).blk t).view.emb j)
  have he : ((cfg2.win 2).blk t).view.emb j = ix2 (⟨t.val * 2000 + (j 0).val, hr⟩ : Fin 40000) (j 1) := by
    funext a; apply Fin.ext
    match a with
    | ⟨0, _⟩ => show win2_2.index t (0 : Fin 2) * 2000 + 1 * (j 0).val = t.val * 2000 + (j 0).val; omega
    | ⟨1, _⟩ => show win2_2.index t (1 : Fin 2) * 128 + 1 * (j 1).val = (j 1).val; omega
  rw [he]
  refine pay_at (V c main_v43) (V c main_arg3) _ _ j ⟨t.val * 2000 + (j 0).val, hr⟩ (fun k => ?_) (fun k => ?_)
  · show V c main_v43 (((cfg2.win 0).blk t).view.emb (ix2 (j 0) k)) = _
    refine congrArg (V c main_v43) ?_
    funext a; apply Fin.ext
    match a with
    | ⟨0, _⟩ => show win2_0.index t (0 : Fin 2) * 2000 + 1 * (j 0).val = t.val * 2000 + (j 0).val; omega
    | ⟨1, _⟩ => show win2_0.index t (1 : Fin 2) * 128 + 1 * k.val = k.val; omega
  · show V c main_arg3 (((cfg2.win 1).blk t).view.emb (ix2 k (j 1))) = _
    refine congrArg (V c main_arg3) ?_
    funext a; apply Fin.ext
    match a with
    | ⟨0, _⟩ => show win2_1.index t (0 : Fin 2) * 128 + 1 * k.val = k.val; omega
    | ⟨1, _⟩ => show win2_1.index t (1 : Fin 2) * 128 + 1 * (j 1).val = (j 1).val; omega

/-- An index of the result array is in point t's block iff each coordinate is in the block's range on its axis. -/
theorem mem_blk (t : Fin cfg2.N) (i : S40000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v44).slice (win2_2.rect t)).set ↔ _
  rw [View.set_slice_whole, Rect.mem_set_unit]
  exact Iff.rfl

/-- Row r of the result is in the block of point r / 2000. -/
theorem cover (i : S40000x128.Idx) : ∃ t : Fin cfg2.N, (cfg2.win 2).flush t = true ∧ i ∈ ((cfg2.win 2).blk t).view.set := by
  have hi0 : (i 0).val < 40000 := (i 0).isLt
  have hi1 : (i 1).val < 128 := (i 1).isLt
  let t : Fin cfg2.N := ⟨(i 0).val / 2000, by show (i 0).val / 2000 < 20; omega⟩
  obtain ⟨e0, e1, e2, e3, e4, e5⟩ := index_facts t
  have e4' : win2_2.index t (0 : Fin 2) = (i 0).val / 2000 := e4
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The array the region leaves is the whole product of the arrays it found. -/
theorem final (c : Dev nD) : (dat2 V c).arrAt 2 cfg2.N = dense (V c main_v43) (V c main_arg3) :=
  (dat2 V c).arrAt_eq_of_cover 2 (dense (V c main_v43) (V c main_arg3)) (fun t _ => flushed_eq V c t) cover

end Cert.KernelIdeal.Dense2

end
-- ==== Proof.Finish1.lean ====
/-
  The first layer's closing step, from blocks to the whole array.

  The region runs over 20 grid points; point t reads rows 2000·t … 2000·t + 1999 of the aggregated messages, of the
  projected features and of the column of squared inverse root degrees, and the one bias row, and writes back
  max ((agg + d·h) + b, 0) as rows 2000·t … 2000·t + 1999 of the result: entry (p, q) of the block is the whole
  array's entry at (2000·t + p, q).  The 20 blocks tile the 40000 rows.  The degree column [40000, 1] and the bias
  row [1, 128] enter through what they hold at (r, 0) and (0, q).
-/
import proofs.«151292_j49538152792352_1_alg».proof.Proof.Gen.KernelIdeal.Frame
import proofs.«151292_j49538152792352_1_alg».proof.Proof.Layers
import Idealize.ShloMosaic.Lib.Pipeline.Value

set_option maxRecDepth 16384

noncomputable section

namespace Cert.KernelIdeal.Finish1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic at (p, q): the messages plus the degree column's entry at (p, 0) times the features, plus
    the bias row's entry at (0, q), rectified. -/
theorem pay_point (a h : Vec Ideal S2000x128 .f32) (dc : Vec Ideal S2000x1 .f32) (br : Vec Ideal S1x128 .f32)
    (p : Fin 2000) (q : Fin 128) :
    k1_pay1 a h dc br (ix2 p q)
      = max ((a (ix2 p q) + dc (ix2 p (0 : Fin 1)) * h (ix2 p q)) + br (ix2 (0 : Fin 1) q)) (Ideal.ofBits .f32 zeroWord) := by
  unfold k1_pay1
  simp only [shapeCast_self]
  show max ((a (ix2 p q) + broadcastTo S2000x128 dc broadcasts_S2000x1_S2000x128 (ix2 p q) * h (ix2 p q))
      + broadcastTo S2000x128 br broadcasts_S1x128_S2000x128 (ix2 p q)) _ = _
  rw [Cert.Layout.bcast_col, Cert.Lib.Rows.broadcastTo_row_apply]
  rfl

/-- The printed index maps over the grid: the three row-blocked inputs and the result move one block of rows per
    point, the bias row stays. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (d : Col 40000) (b : Col 128)

/-- What point t writes back is block t of the whole closing step. -/
theorem flushed_eq (c : Dev nD)
    (hd : ∀ r : Fin 40000, V c main_v41 (ix2 r (0 : Fin 1)) = d (ix1 r))
    (hb : ∀ q : Fin 128, V c main_v42 (ix2 (0 : Fin 1) q) = b (ix1 q)) (t : Fin cfg1.N) :
    (dat1 V c).flushed 4 t
      = ((cfg1.win 4).blk t).view.read (Elt Ideal) (finish (V c main_v39) (V c main_v4) d b) := by
  show (cfg1.win 4).cut (grid1.coords t) ((dat1 V c).after 4 t) = _
  rw [after1_4]
  unfold out1_4
  rw [View.canon_unit_zero origin]
  simp only [View.ld_unit_zero (S := S2000x128) origin, View.ld_unit_zero (S := S2000x1) origin,
    View.ld_unit_zero (S := S1x128) origin]
  obtain ⟨e0, e1, e2, e3, e4, e5, e6, e7, e8, e9⟩ := index_facts t
  funext j
  obtain ⟨p, q, rfl⟩ : ∃ (p : Fin 2000) (q : Fin 128), j = ix2 p q := ⟨j 0, j 1, eq_ix2 j⟩
  have ht : t.val < 20 := t.isLt
  have hp : p.val < 2000 := p.isLt
  have hq : q.val < 128 := q.isLt
  have hr : t.val * 2000 + p.val < 40000 := by omega
  show k1_pay1 (iblk1 V c 0 t) (iblk1 V c 1 t) (iblk1 V c 2 t) (iblk1 V c 3 t) (ix2 p q)
    = finish (V c main_v39) (V c main_v4) d b (((cfg1.win 4).blk t).view.emb (ix2 p q))
  have he : ((cfg1.win 4).blk t).view.emb (ix2 p q) = ix2 (⟨t.val * 2000 + p.val, hr⟩ : Fin 40000) q := by
    funext a; apply Fin.ext
    match a with
    | ⟨0, _⟩ => show win1_4.index t (0 : Fin 2) * 2000 + 1 * p.val = t.val * 2000 + p.val; omega
    | ⟨1, _⟩ => show win1_4.index t (1 : Fin 2) * 128 + 1 * q.val = q.val; omega
  have h0 : iblk1 V c 0 t (ix2 p q) = V c main_v39 (ix2 (⟨t.val * 2000 + p.val, hr⟩ : Fin 40000) q) := by
    show V c main_v39 (((cfg1.win 0).blk t).view.emb (ix2 p q)) = _
    refine congrArg (V c main_v39) ?_
    funext a; apply Fin.ext
    match a with
    | ⟨0, _⟩ => show win1_0.index t (0 : Fin 2) * 2000 + 1 * p.val = t.val * 2000 + p.val; omega
    | ⟨1, _⟩ => show win1_0.index t (1 : Fin 2) * 128 + 1 * q.val = q.val; omega
  have h1 : iblk1 V c 1 t (ix2 p q) = V c main_v4 (ix2 (⟨t.val * 2000 + p.val, hr⟩ : Fin 40000) q) := by
    show V c main_v4 (((cfg1.win 1).blk t).view.emb (ix2 p q)) = _
    refine congrArg (V c main_v4) ?_
    funext a; apply Fin.ext
    match a with
    | ⟨0, _⟩ => show win1_1.index t (0 : Fin 2) * 2000 + 1 * p.val = t.val * 2000 + p.val; omega
    | ⟨1, _⟩ => show win1_1.index t (1 : Fin 2) * 128 + 1 * q.val = q.val; omega
  have h2 : iblk1 V c 2 t (ix2 p (0 : Fin 1)) = d (ix1 (⟨t.val * 2000 + p.val, hr⟩ : Fin 40000)) := by
    show V c main_v41 (((cfg1.win 2).blk t).view.emb (ix2 p (0 : Fin 1))) = _
    refine (congrArg (V c main_v41) ?_).trans (hd ⟨t.val * 2000 + p.val, hr⟩)
    funext a; apply Fin.ext
    match a with
    | ⟨0, _⟩ => show win1_2.index t (0 : Fin 2) * 2000 + 1 * p.val = t.val * 2000 + p.val; omega
    | ⟨1, _⟩ => show win1_2.index t (1 : Fin 2) * 1 + 1 * 0 = 0; omega
  have h3 : iblk1 V c 3 t (ix2 (0 : Fin 1) q) = b (ix1 q) := by
    show V c main_v42 (((cfg1.win 3).blk t).view.emb (ix2 (0 : Fin 1) q)) = _
    refine (congrArg (V c main_v42) ?_).trans (hb q)
    funext a; apply Fin.ext
    match a with
    | ⟨0, _⟩ => show win1_3.index t (0 : Fin 2) * 1 + 1 * 0 = 0; omega
    | ⟨1, _⟩ => show win1_3.index t (1 : Fin 2) * 128 + 1 * q.val = q.val; omega
  rw [he, finish_apply, pay_point, h0, h1, h2, h3]

/-- An index of the result array is in point t's block iff each coordinate is in the block's range on its axis. -/
theorem mem_blk (t : Fin cfg1.N) (i : S40000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v43).slice (win1_4.rect t)).set ↔ _
  rw [View.set_slice_whole, Rect.mem_set_unit]
  exact Iff.rfl

/-- Row r of the result is in the block of point r / 2000. -/
theorem cover (i : S40000x128.Idx) : ∃ t : Fin cfg1.N, (cfg1.win 4).flush t = true ∧ i ∈ ((cfg1.win 4).blk t).view.set := by
  have hi0 : (i 0).val < 40000 := (i 0).isLt
  have hi1 : (i 1).val < 128 := (i 1).isLt
  let t : Fin cfg1.N := ⟨(i 0).val / 2000, by show (i 0).val / 2000 < 20; omega⟩
  obtain ⟨e0, e1, e2, e3, e4, e5, e6, e7, e8, e9⟩ := index_facts t
  have e8' : win1_4.index t (0 : Fin 2) = (i 0).val / 2000 := e8
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The array the region leaves is the whole closing step of the arrays it found. -/
theorem final (c : Dev nD)
    (hd : ∀ r : Fin 40000, V c main_v41 (ix2 r (0 : Fin 1)) = d (ix1 r))
    (hb : ∀ q : Fin 128, V c main_v42 (ix2 (0 : Fin 1) q) = b (ix1 q)) :
    (dat1 V c).arrAt 4 cfg1.N = finish (V c main_v39) (V c main_v4) d b :=
  (dat1 V c).arrAt_eq_of_cover 4 (finish (V c main_v39) (V c main_v4) d b) (fun t _ => flushed_eq V d b c hd hb t) cover

end Cert.KernelIdeal.Finish1

end
-- ==== Proof.Finish3.lean ====
/-
  The second layer's closing step, from blocks to the whole array.

  The region runs over 20 grid points; point t reads rows 2000·t … 2000·t + 1999 of the aggregated messages, of the
  projected features and of the column of squared inverse root degrees, and the one bias row, and writes back
  max ((agg + d·h) + b, 0) as rows 2000·t … 2000·t + 1999 of the result: entry (p, q) of the block is the whole
  array's entry at (2000·t + p, q).  The 20 blocks tile the 40000 rows.  The degree column [40000, 1] and the bias
  row [1, 128] enter through what they hold at (r, 0) and (0, q).
-/
import proofs.«151292_j49538152792352_1_alg».proof.Proof.Gen.KernelIdeal.Frame
import proofs.«151292_j49538152792352_1_alg».proof.Proof.Layers
import Idealize.ShloMosaic.Lib.Pipeline.Value

set_option maxRecDepth 16384

noncomputable section

namespace Cert.KernelIdeal.Finish3

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic at (p, q): the messages plus the degree column's entry at (p, 0) times the features, plus
    the bias row's entry at (0, q), rectified. -/
theorem pay_point (a h : Vec Ideal S2000x128 .f32) (dc : Vec Ideal S2000x1 .f32) (br : Vec Ideal S1x128 .f32)
    (p : Fin 2000) (q : Fin 128) :
    k3_pay1 a h dc br (ix2 p q)
      = max ((a (ix2 p q) + dc (ix2 p (0 : Fin 1)) * h (ix2 p q)) + br (ix2 (0 : Fin 1) q)) (Ideal.ofBits .f32 zeroWord) := by
  unfold k3_pay1
  simp only [shapeCast_self]
  show max ((a (ix2 p q) + broadcastTo S2000x128 dc broadcasts_S2000x1_S2000x128 (ix2 p q) * h (ix2 p q))
      + broadcastTo S2000x128 br broadcasts_S1x128_S2000x128 (ix2 p q)) _ = _
  rw [Cert.Layout.bcast_col, Cert.Lib.Rows.broadcastTo_row_apply]
  rfl

/-- The printed index maps over the grid: the three row-blocked inputs and the result move one block of rows per
    point, the bias row stays. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (d : Col 40000) (b : Col 128)

/-- What point t writes back is block t of the whole closing step. -/
theorem flushed_eq (c : Dev nD)
    (hd : ∀ r : Fin 40000, V c main_v81 (ix2 r (0 : Fin 1)) = d (ix1 r))
    (hb : ∀ q : Fin 128, V c main_v82 (ix2 (0 : Fin 1) q) = b (ix1 q)) (t : Fin cfg3.N) :
    (dat3 V c).flushed 4 t
      = ((cfg3.win 4).blk t).view.read (Elt Ideal) (finish (V c main_v79) (V c main_v44) d b) := by
  show (cfg3.win 4).cut (grid3.coords t) ((dat3 V c).after 4 t) = _
  rw [after3_4]
  unfold out3_4
  rw [View.canon_unit_zero origin]
  simp only [View.ld_unit_zero (S := S2000x128) origin, View.ld_unit_zero (S := S2000x1) origin,
    View.ld_unit_zero (S := S1x128) origin]
  obtain ⟨e0, e1, e2, e3, e4, e5, e6, e7, e8, e9⟩ := index_facts t
  funext j
  obtain ⟨p, q, rfl⟩ : ∃ (p : Fin 2000) (q : Fin 128), j = ix2 p q := ⟨j 0, j 1, eq_ix2 j⟩
  have ht : t.val < 20 := t.isLt
  have hp : p.val < 2000 := p.isLt
  have hq : q.val < 128 := q.isLt
  have hr : t.val * 2000 + p.val < 40000 := by omega
  show k3_pay1 (iblk3 V c 0 t) (iblk3 V c 1 t) (iblk3 V c 2 t) (iblk3 V c 3 t) (ix2 p q)
    = finish (V c main_v79) (V c main_v44) d b (((cfg3.win 4).blk t).view.emb (ix2 p q))
  have he : ((cfg3.win 4).blk t).view.emb (ix2 p q) = ix2 (⟨t.val * 2000 + p.val, hr⟩ : Fin 40000) q := by
    funext a; apply Fin.ext
    match a with
    | ⟨0, _⟩ => show win3_4.index t (0 : Fin 2) * 2000 + 1 * p.val = t.val * 2000 + p.val; omega
    | ⟨1, _⟩ => show win3_4.index t (1 : Fin 2) * 128 + 1 * q.val = q.val; omega
  have h0 : iblk3 V c 0 t (ix2 p q) = V c main_v79 (ix2 (⟨t.val * 2000 + p.val, hr⟩ : Fin 40000) q) := by
    show V c main_v79 (((cfg3.win 0).blk t).view.emb (ix2 p q)) = _
    refine congrArg (V c main_v79) ?_
    funext a; apply Fin.ext
    match a with
    | ⟨0, _⟩ => show win3_0.index t (0 : Fin 2) * 2000 + 1 * p.val = t.val * 2000 + p.val; omega
    | ⟨1, _⟩ => show win3_0.index t (1 : Fin 2) * 128 + 1 * q.val = q.val; omega
  have h1 : iblk3 V c 1 t (ix2 p q) = V c main_v44 (ix2 (⟨t.val * 2000 + p.val, hr⟩ : Fin 40000) q) := by
    show V c main_v44 (((cfg3.win 1).blk t).view.emb (ix2 p q)) = _
    refine congrArg (V c main_v44) ?_
    funext a; apply Fin.ext
    match a with
    | ⟨0, _⟩ => show win3_1.index t (0 : Fin 2) * 2000 + 1 * p.val = t.val * 2000 + p.val; omega
    | ⟨1, _⟩ => show win3_1.index t (1 : Fin 2) * 128 + 1 * q.val = q.val; omega
  have h2 : iblk3 V c 2 t (ix2 p (0 : Fin 1)) = d (ix1 (⟨t.val * 2000 + p.val, hr⟩ : Fin 40000)) := by
    show V c main_v81 (((cfg3.win 2).blk t).view.emb (ix2 p (0 : Fin 1))) = _
    refine (congrArg (V c main_v81) ?_).trans (hd ⟨t.val * 2000 + p.val, hr⟩)
    funext a; apply Fin.ext
    match a with
    | ⟨0, _⟩ => show win3_2.index t (0 : Fin 2) * 2000 + 1 * p.val = t.val * 2000 + p.val; omega
    | ⟨1, _⟩ => show win3_2.index t (1 : Fin 2) * 1 + 1 * 0 = 0; omega
  have h3 : iblk3 V c 3 t (ix2 (0 : Fin 1) q) = b (ix1 q) := by
    show V c main_v82 (((cfg3.win 3).blk t).view.emb (ix2 (0 : Fin 1) q)) = _
    refine (congrArg (V c main_v82) ?_).trans (hb q)
    funext a; apply Fin.ext
    match a with
    | ⟨0, _⟩ => show win3_3.index t (0 : Fin 2) * 1 + 1 * 0 = 0; omega
    | ⟨1, _⟩ => show win3_3.index t (1 : Fin 2) * 128 + 1 * q.val = q.val; omega
  rw [he, finish_apply, pay_point, h0, h1, h2, h3]

/-- An index of the result array is in point t's block iff each coordinate is in the block's range on its axis. -/
theorem mem_blk (t : Fin cfg3.N) (i : S40000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v83).slice (win3_4.rect t)).set ↔ _
  rw [View.set_slice_whole, Rect.mem_set_unit]
  exact Iff.rfl

/-- Row r of the result is in the block of point r / 2000. -/
theorem cover (i : S40000x128.Idx) : ∃ t : Fin cfg3.N, (cfg3.win 4).flush t = true ∧ i ∈ ((cfg3.win 4).blk t).view.set := by
  have hi0 : (i 0).val < 40000 := (i 0).isLt
  have hi1 : (i 1).val < 128 := (i 1).isLt
  let t : Fin cfg3.N := ⟨(i 0).val / 2000, by show (i 0).val / 2000 < 20; omega⟩
  obtain ⟨e0, e1, e2, e3, e4, e5, e6, e7, e8, e9⟩ := index_facts t
  have e8' : win3_4.index t (0 : Fin 2) = (i 0).val / 2000 := e8
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- The array the region leaves is the whole closing step of the arrays it found. -/
theorem final (c : Dev nD)
    (hd : ∀ r : Fin 40000, V c main_v81 (ix2 r (0 : Fin 1)) = d (ix1 r))
    (hb : ∀ q : Fin 128, V c main_v82 (ix2 (0 : Fin 1) q) = b (ix1 q)) :
    (dat3 V c).arrAt 4 cfg3.N = finish (V c main_v79) (V c main_v44) d b :=
  (dat3 V c).arrAt_eq_of_cover 4 (finish (V c main_v79) (V c main_v44) d b) (fun t _ => flushed_eq V d b c hd hb t) cover

end Cert.KernelIdeal.Finish3

end
-- ==== Proof.Head4.lean ====
/-
  The normalized linear head, from its one block to the whole array.

  The region has a single grid point whose blocks are the whole arrays: the pooled means [64, 128], the output
  weights [128, 64], the bias row [1, 64], the result [64, 64].  The body forms lin = g·wl + b (the bias row repeated
  down the rows), sums lin² along each row, takes the square root, keeps it above a small constant, repeats that
  column along the row and divides: entry (r, q) is lin (r, q) / max (sqrt (sum over k of lin (r, k)²), ε).  The bias
  row enters through what it holds at (0, q).
-/
import proofs.«151292_j49538152792352_1_alg».proof.Proof.Gen.KernelIdeal.Frame
import proofs.«151292_j49538152792352_1_alg».proof.Proof.Layers
import Idealize.ShloMosaic.Lib.Pipeline.Value

set_option maxRecDepth 16384

noncomputable section

namespace Cert.KernelIdeal.Head4

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's linear part: the product into the zero accumulator plus the bias row repeated down the rows. -/
def linPart (gb : Vec Ideal S64x128 .f32) (wb : Vec Ideal S128x64 .f32) (br : Vec Ideal S1x64 .f32) : FVec Ideal S64x64 .f32 :=
  addf (matmul dot_S64x128_S128x64_S64x64_1_0_0_1_n_n none
      (truncf .bf16 (shapeCast S64x128 gb shapeCasts_S64x128_S64x128) bitsLt_bf16_f32) (truncf .bf16 wb bitsLt_bf16_f32)
      (constant S64x64 .f32 0x00000000#32))
    (broadcastTo S64x64 (shapeCast S1x64 br shapeCasts_S1x64_S1x64) broadcasts_S1x64_S64x64)

/-- The body's normalizing part: each row divided by the larger of its Euclidean norm and the small constant. -/
def rowNormalize (v : FVec Ideal S64x64 .f32) : FVec Ideal S64x64 .f32 :=
  divf v (broadcastTo S64x64
    (maximumf (sqrt (shapeCast S64x1 (multiReduction .add [1] S64 (mulf v v) 0x00000000#32 reduces_S64x64_S64 (.inl rfl) rfl) shapeCasts_S64_S64x1))
      (broadcast S64x1 (Scalar.ofBits .f32 0x2B8CBCCC#32)))
    broadcasts_S64x1_S64x64)

/-- The body's stored value is the normalizing part of its linear part. -/
theorem pay_split (gb : Vec Ideal S64x128 .f32) (wb : Vec Ideal S128x64 .f32) (br : Vec Ideal S1x64 .f32) :
    k4_pay1 gb wb br = rowNormalize (linPart gb wb br) := rfl

/-- The linear part at (r, q) is the linear map over the whole arrays there. -/
theorem linPart_apply (g : Mat 64 128) (wl : Mat 128 64) (bl : Col 64)
    (gb : Vec Ideal S64x128 .f32) (wb : Vec Ideal S128x64 .f32) (br : Vec Ideal S1x64 .f32)
    (hg : ∀ (r : Fin 64) (k : Fin 128), gb (ix2 r k) = g (ix2 r k))
    (hw : ∀ (k : Fin 128) (q : Fin 64), wb (ix2 k q) = wl (ix2 k q))
    (hb : ∀ q : Fin 64, br (ix2 (0 : Fin 1) q) = bl (ix1 q)) (r q : Fin 64) :
    linPart gb wb br (ix2 r q) = linear g wl bl (ix2 r q) := by
  unfold linPart
  simp only [shapeCast_self]
  rw [linear_apply]
  show matmul (F := Ideal) dot_S64x128_S128x64_S64x64_1_0_0_1_n_n none (truncf .bf16 gb bitsLt_bf16_f32) (truncf .bf16 wb bitsLt_bf16_f32)
      (constant (F := Ideal) S64x64 .f32 0x00000000#32) (ix2 r q) + broadcastTo S64x64 br broadcasts_S1x64_S64x64 (ix2 r q) = _
  rw [Cert.Lib.Rows.broadcastTo_row_apply, hb]
  refine congrArg (· + bl (ix1 q)) ?_
  exact Cert.Lib.RowBlocks.matmul_rows_eq_dotGeneral (B := 64) (M := 64) none none g wl
    (truncf .bf16 gb bitsLt_bf16_f32) (truncf .bf16 wb bitsLt_bf16_f32) r r q (fun k => hg r k) (fun k => hw k q)

/-- The normalizing part at (r, q). -/
theorem rowNormalize_apply (v : FVec Ideal S64x64 .f32) (r q : Fin 64) :
    rowNormalize v (ix2 r q)
      = Ideal.div (v (ix2 r q)) (max (Ideal.sqrt (∑ k : Fin 64, v (ix2 r k) * v (ix2 r k))) (Ideal.ofBits .f32 epsWord)) := by
  unfold rowNormalize
  show Ideal.div (v (ix2 r q)) (broadcastTo S64x64 _ broadcasts_S64x1_S64x64 (ix2 r q)) = _
  rw [Cert.Layout.bcast_col]
  show Ideal.div (v (ix2 r q)) (max (Ideal.sqrt (shapeCast S64x1 _ shapeCasts_S64_S64x1 (ix2 r (0 : Fin 1)))) _) = _
  rw [Cert.Layout.cast_col, Cert.Lib.Lane.laneSum_apply]
  rfl

/-- The printed index maps at the one grid point: every block is the whole array. -/
theorem index_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

variable (bl : Col 64)

/-- What the point writes back is the whole head. -/
theorem flushed_eq (c : Dev nD) (hb : ∀ q : Fin 64, V c main_v96 (ix2 (0 : Fin 1) q) = bl (ix1 q)) (t : Fin cfg4.N) :
    (dat4 V c).flushed 3 t
      = ((cfg4.win 3).blk t).view.read (Elt Ideal) (head (V c main_v95) (V c main_arg5) bl) := by
  show (cfg4.win 3).cut (grid4.coords t) ((dat4 V c).after 3 t) = _
  rw [after4_3]
  unfold out4_3
  rw [View.canon_unit_zero origin]
  simp only [View.ld_unit_zero (S := S64x128) origin, View.ld_unit_zero (S := S128x64) origin,
    View.ld_unit_zero (S := S1x64) origin]
  obtain ⟨e0, e1, e2, e3, e4, e5, e6, e7⟩ := index_facts t
  funext j
  obtain ⟨r, q, rfl⟩ : ∃ (r q : Fin 64), j = ix2 r q := ⟨j 0, j 1, eq_ix2 j⟩
  show k4_pay1 (iblk4 V c 0 t) (iblk4 V c 1 t) (iblk4 V c 2 t) (ix2 r q)
    = head (V c main_v95) (V c main_arg5) bl (((cfg4.win 3).blk t).view.emb (ix2 r q))
  have he : ((cfg4.win 3).blk t).view.emb (ix2 r q) = ix2 r q := by
    funext a; apply Fin.ext
    match a with
    | ⟨0, _⟩ => show win4_3.index t (0 : Fin 2) * 64 + 1 * r.val = r.val; omega
    | ⟨1, _⟩ => show win4_3.index t (1 : Fin 2) * 64 + 1 * q.val = q.val; omega
  have hg : ∀ (a : Fin 64) (k : Fin 128), iblk4 V c 0 t (ix2 a k) = V c main_v95 (ix2 a k) := by
    intro a k
    show V c main_v95 (((cfg4.win 0).blk t).view.emb (ix2 a k)) = _
    refine congrArg (V c main_v95) ?_
    funext x; apply Fin.ext
    match x with
    | ⟨0, _⟩ => show win4_0.index t (0 : Fin 2) * 64 + 1 * a.val = a.val; omega
    | ⟨1, _⟩ => show win4_0.index t (1 : Fin 2) * 128 + 1 * k.val = k.val; omega
  have hw : ∀ (k : Fin 128) (a : Fin 64), iblk4 V c 1 t (ix2 k a) = V c main_arg5 (ix2 k a) := by
    intro k a
    show V c main_arg5 (((cfg4.win 1).blk t).view.emb (ix2 k a)) = _
    refine congrArg (V c main_arg5) ?_
    funext x; apply Fin.ext
    match x with
    | ⟨0, _⟩ => show win4_1.index t (0 : Fin 2) * 128 + 1 * k.val = k.val; omega
    | ⟨1, _⟩ => show win4_1.index t (1 : Fin 2) * 64 + 1 * a.val = a.val; omega
  have hbr : ∀ a : Fin 64, iblk4 V c 2 t (ix2 (0 : Fin 1) a) = bl (ix1 a) := by
    intro a
    show V c main_v96 (((cfg4.win 2).blk t).view.emb (ix2 (0 : Fin 1) a)) = _
    refine (congrArg (V c main_v96) ?_).trans (hb a)
    funext x; apply Fin.ext
    match x with
    | ⟨0, _⟩ => show win4_2.index t (0 : Fin 2) * 1 + 1 * 0 = 0; omega
    | ⟨1, _⟩ => show win4_2.index t (1 : Fin 2) * 64 + 1 * a.val = a.val; omega
  rw [he, pay_split, rowNormalize_apply, head_apply]
  simp only [linPart_apply (V c main_v95) (V c main_arg5) bl (iblk4 V c 0 t) (iblk4 V c 1 t) (iblk4 V c 2 t) hg hw hbr]

/-- An index of the result array is in the point's block iff each coordinate is in the block's range on its axis. -/
theorem mem_blk (t : Fin cfg4.N) (i : S64x64.Idx) :
    i ∈ ((cfg4.win 3).blk t).view.set ↔ ∀ a : Fin 2, win4_3.index t a * S64x64.size a ≤ (i a).val ∧ (i a).val < win4_3.index t a * S64x64.size a + S64x64.size a := by
  show i ∈ ((View.whole main_v97).slice (win4_3.rect t)).set ↔ _
  rw [View.set_slice_whole, Rect.mem_set_unit]
  exact Iff.rfl

/-- Every index of the result is in the one point's block. -/
theorem cover (i : S64x64.Idx) : ∃ t : Fin cfg4.N, (cfg4.win 3).flush t = true ∧ i ∈ ((cfg4.win 3).blk t).view.set := by
  have hi0 : (i 0).val < 64 := (i 0).isLt
  have hi1 : (i 1).val < 64 := (i 1).isLt
  let t : Fin cfg4.N := ⟨0, by decide⟩
  obtain ⟨e0, e1, e2, e3, e4, e5, e6, e7⟩ := index_facts t
  refine ⟨t, flush4_3 t, ?_⟩
  rw [mem_blk]
  intro a
  match a with
  | ⟨0, _⟩ => show win4_3.index t (0 : Fin 2) * 64 ≤ (i 0).val ∧ (i 0).val < win4_3.index t (0 : Fin 2) * 64 + 64; omega
  | ⟨1, _⟩ => show win4_3.index t (1 : Fin 2) * 64 ≤ (i 1).val ∧ (i 1).val < win4_3.index t (1 : Fin 2) * 64 + 64; omega

/-- The array the region leaves is the whole head of the arrays it found. -/
theorem final (c : Dev nD) (hb : ∀ q : Fin 64, V c main_v96 (ix2 (0 : Fin 1) q) = bl (ix1 q)) :
    (dat4 V c).arrAt 3 cfg4.N = head (V c main_v95) (V c main_arg5) bl :=
  (dat4 V c).arrAt_eq_of_cover 3 (head (V c main_v95) (V c main_arg5) bl) (fun t _ => flushed_eq V bl c hb t) cover

end Cert.KernelIdeal.Head4

end
-- ==== Proof.RefLayers.lean ====
/-
  The reference, stage by stage, is the same five whole-array functions.

  Its two matrix products are `dense` of their operands as they stand.  Its first rectified sum is `finish` of the
  aggregated messages, the projected features, the squared inverse root degrees and the bias: the degree vector
  reaches entry (r, q) through a column [40000, 1] repeated along its unit axis, the bias through a row [1, 128]
  repeated down the rows, so the two read d r and b q.  The second is the same over the second layer's arrays.
  Its last quotient is `head` of the pooled means, the output weights and the output bias: the row sum of squares
  starts from the zero word, which adds nothing.
-/
import proofs.«151292_j49538152792352_1_alg».proof.Proof.Gen.ReferenceIdeal.Read
import proofs.«151292_j49538152792352_1_alg».proof.Proof.Layers

noncomputable section

namespace Cert.ReferenceIdeal.Stages

open Cert.ReferenceIdeal Cert.ReferenceIdeal.Read Idealize.ShloMosaic Idealize.ShloMosaic.ValueIdx Cert.Gcn

variable (x0 : (⟨S40000x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S2x640000, .i32⟩ : BufTy).Contents (Elt Ideal))
  (x8 : (⟨S40000, .i32⟩ : BufTy).Contents (Elt Ideal))

/-- The first projection. -/
theorem dense_first : val_main_v4 (F := Ideal) x0 x1 = dense x0 x1 := rfl

/-- The second projection, of the first layer's output. -/
theorem dense_second :
    val_main_v49 (F := Ideal) x0 x1 x2 x3 x7 = dense (val_main_v48 (F := Ideal) x0 x1 x2 x7) x3 := rfl

/-- The first layer's closing step. -/
theorem finish_first :
    val_main_v48 (F := Ideal) x0 x1 x2 x7
      = finish (val_main_v39 (F := Ideal) x0 x1 x7) (val_main_v4 (F := Ideal) x0 x1) (val_main_v40 (F := Ideal) x7) x2 := by
  funext i
  obtain ⟨r, q, rfl⟩ : ∃ (r : Fin 40000) (q : Fin 128), i = ix2 r q := ⟨i 0, i 1, eq_ix2 i⟩
  rw [finish_apply, val_main_v48_apply, val_main_v47_apply, val_main_v44_apply, val_main_v43_apply, val_main_v42_apply,
    val_main_v41_apply, val_main_v46_apply, val_main_v45_apply, val_main_call0_v0_apply, val_main_call0_cst_apply]
  have e1 : idx_main_v41 (idx_main_v42 (ix2 r q)) = ix1 r :=
    funext fun a => Fin.ext (by match a with | ⟨0, _⟩ => rfl)
  have e2 : idx_main_v45 (idx_main_v46 (ix2 r q)) = ix1 q :=
    funext fun a => Fin.ext (by match a with | ⟨0, _⟩ => rfl)
  rw [e1, e2]
  rfl

/-- The second layer's closing step. -/
theorem finish_second :
    val_main_v93 (F := Ideal) x0 x1 x2 x3 x4 x7
      = finish (val_main_v84 (F := Ideal) x0 x1 x2 x3 x7) (val_main_v49 (F := Ideal) x0 x1 x2 x3 x7)
          (val_main_v85 (F := Ideal) x7) x4 := by
  funext i
  obtain ⟨r, q, rfl⟩ : ∃ (r : Fin 40000) (q : Fin 128), i = ix2 r q := ⟨i 0, i 1, eq_ix2 i⟩
  rw [finish_apply, val_main_v93_apply, val_main_v92_apply, val_main_v89_apply, val_main_v88_apply, val_main_v87_apply,
    val_main_v86_apply, val_main_v91_apply, val_main_v90_apply, val_main_call1_v0_apply, val_main_call1_cst_apply]
  have e1 : idx_main_v86 (idx_main_v87 (ix2 r q)) = ix1 r :=
    funext fun a => Fin.ext (by match a with | ⟨0, _⟩ => rfl)
  have e2 : idx_main_v90 (idx_main_v91 (ix2 r q)) = ix1 q :=
    funext fun a => Fin.ext (by match a with | ⟨0, _⟩ => rfl)
  rw [e1, e2]
  rfl

/-- The linear map over the pooled means, bias added. -/
theorem linear_eq (a b : Fin 64) :
    val_main_v109 (F := Ideal) x0 x1 x2 x3 x4 x5 x6 x7 x8 (ix2 a b)
      = linear (val_main_v105 (F := Ideal) x0 x1 x2 x3 x4 x7 x8) x5 x6 (ix2 a b) := by
  rw [val_main_v109_apply, val_main_v108_apply, val_main_v107_apply, linear_apply]
  have e : idx_main_v107 (idx_main_v108 (ix2 a b)) = ix1 b :=
    funext fun d => Fin.ext (by match d with | ⟨0, _⟩ => rfl)
  rw [e]
  rfl

/-- The constant the norm is kept above, wherever it is read. -/
theorem eps_read (i : S64x1.Idx) : val_main_v111 (F := Ideal) i = Ideal.ofBits .f32 epsWord := by
  rw [val_main_v111_apply]
  rfl

/-- The row sum of squares starts from zero. -/
theorem sum_init (i : S_.Idx) : val_main_call2_cst (F := Ideal) i = 0 := Ideal.ofBits_zero_f32

/-- A row's squared entries, read through the sum's index map. -/
theorem square_read (r q k : Fin 64) :
    val_main_call2_v0 (F := Ideal) x0 x1 x2 x3 x4 x5 x6 x7 x8 (idx_main_call2_v1 (idx_main_call2_v2 (idx_main_v113 (ix2 r q))) k)
      = linear (val_main_v105 (F := Ideal) x0 x1 x2 x3 x4 x7 x8) x5 x6 (ix2 r k)
        * linear (val_main_v105 (F := Ideal) x0 x1 x2 x3 x4 x7 x8) x5 x6 (ix2 r k) := by
  have e : idx_main_call2_v1 (idx_main_call2_v2 (idx_main_v113 (ix2 r q))) k = ix2 r k :=
    funext fun d => Fin.ext (by match d with | ⟨0, _⟩ => rfl | ⟨1, _⟩ => rfl)
  rw [e, val_main_call2_v0_apply, linear_eq]
  rfl

/-- The divisor at (r, q): the larger of the row's Euclidean norm and the small constant. -/
theorem divisor_read (r q : Fin 64) :
    val_main_v113 (F := Ideal) x0 x1 x2 x3 x4 x5 x6 x7 x8 (ix2 r q)
      = max (Ideal.sqrt (∑ k : Fin 64, linear (val_main_v105 (F := Ideal) x0 x1 x2 x3 x4 x7 x8) x5 x6 (ix2 r k)
            * linear (val_main_v105 (F := Ideal) x0 x1 x2 x3 x4 x7 x8) x5 x6 (ix2 r k)))
          (Ideal.ofBits .f32 epsWord) := by
  rw [val_main_v113_apply, val_main_v112_apply, val_main_v110_apply, val_main_call2_v2_apply, val_main_call2_v1_apply,
    eps_read, sum_init, zero_add, Finset.sum_congr rfl fun k _ => square_read x0 x1 x2 x3 x4 x5 x6 x7 x8 r q k,
    Ideal.maximumf_def, Ideal.hostUnary_sqrt_def]

/-- The normalized head. -/
theorem head_eq :
    val_main_v114 (F := Ideal) x0 x1 x2 x3 x4 x5 x6 x7 x8
      = head (val_main_v105 (F := Ideal) x0 x1 x2 x3 x4 x7 x8) x5 x6 := by
  funext i
  obtain ⟨r, q, rfl⟩ : ∃ (r q : Fin 64), i = ix2 r q := ⟨i 0, i 1, eq_ix2 i⟩
  rw [head_apply, val_main_v114_apply, divisor_read, linear_eq, Ideal.hostDivf_def]

end Cert.ReferenceIdeal.Stages

end
-- ==== Proof.Boundaries.lean ====
/-
  The idealized kernel's buffers at each boundary between two segments of its program, read as the reference's
  stages of the argument arrays.

  The program's segments: the edge lists cut out of the edge array; the first projection (a region); the degree
  normalization, the gathers and the scatter-add of the first layer; its closing step (a region); the second
  projection (a region); the same host operations for the second layer; its closing step (a region); the mean
  pooling; the normalized head (a region).  The host operations are, one for one, the reference's own, applied to
  the same arrays; each region leaves the whole-array function that the reference computes with its own host
  operations at that place.  So, walking the fold from the launch memory: after each segment, every buffer a later
  segment reads holds the reference's stage of the same name, and at the end the result buffer holds the
  reference's result.  A buffer that no operation of a stretch writes, and no window of a region covers, keeps
  what it held.
-/
import proofs.«151292_j49538152792352_1_alg».proof.Proof.Gen.KernelIdeal.Frame
import proofs.«151292_j49538152792352_1_alg».proof.Proof.Gen.ReferenceIdeal.Read
import proofs.«151292_j49538152792352_1_alg».proof.Proof.Dense0
import proofs.«151292_j49538152792352_1_alg».proof.Proof.Dense2
import proofs.«151292_j49538152792352_1_alg».proof.Proof.Finish1
import proofs.«151292_j49538152792352_1_alg».proof.Proof.Finish3
import proofs.«151292_j49538152792352_1_alg».proof.Proof.Head4
import proofs.«151292_j49538152792352_1_alg».proof.Proof.RefLayers
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem
open Idealize.ShloMosaic.StableHlo Idealize.ShloMosaic.ValueIdx Cert.Gcn
open Cert.ReferenceIdeal.Read Cert.ReferenceIdeal.Stages

variable (m : (ℓ : Loc nD τ sig) → Buf (Elt Ideal) ℓ) (ρ : Dev nD → PrngReg) (c : Dev nD)

/-- The nine argument arrays as launched. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)

/-- A buffer that none of a stretch's operations writes keeps its contents through the stretch. -/
local macro "untouched" : tactic => `(tactic|
  (refine StableHlo.after_of_forall_not_mem _ _ (List.forall_iff_forall_mem.mp ?_)
   simp only [hostOps0, hostOps1, hostOps3, hostOps4, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## After the edge lists are cut out -/

theorem atW1_v1 : W1 m ρ c (Proc.devRef .tc main_v1) = val_main_v1 (F := Ideal) (x7 m c) := by
  show StableHlo.after hostOps0 (W0 m ρ c) (Proc.devRef .tc main_v1) = _
  simp only [hostOps0]
  after_results
  rfl
theorem atW1_v3 : W1 m ρ c (Proc.devRef .tc main_v3) = val_main_v3 (F := Ideal) (x7 m c) := by
  show StableHlo.after hostOps0 (W0 m ρ c) (Proc.devRef .tc main_v3) = _
  simp only [hostOps0]
  after_results
  rfl
theorem atW1_arg0 : W1 m ρ c (Proc.devRef .tc main_arg0) = x0 m c := by
  show StableHlo.after hostOps0 (W0 m ρ c) (Proc.devRef .tc main_arg0) = W0 m ρ c (Proc.devRef .tc main_arg0)
  untouched
theorem atW1_arg1 : W1 m ρ c (Proc.devRef .tc main_arg1) = x1 m c := by
  show StableHlo.after hostOps0 (W0 m ρ c) (Proc.devRef .tc main_arg1) = W0 m ρ c (Proc.devRef .tc main_arg1)
  untouched
theorem atW1_arg2 : W1 m ρ c (Proc.devRef .tc main_arg2) = x2 m c := by
  show StableHlo.after hostOps0 (W0 m ρ c) (Proc.devRef .tc main_arg2) = W0 m ρ c (Proc.devRef .tc main_arg2)
  untouched
theorem atW1_arg3 : W1 m ρ c (Proc.devRef .tc main_arg3) = x3 m c := by
  show StableHlo.after hostOps0 (W0 m ρ c) (Proc.devRef .tc main_arg3) = W0 m ρ c (Proc.devRef .tc main_arg3)
  untouched
theorem atW1_arg4 : W1 m ρ c (Proc.devRef .tc main_arg4) = x4 m c := by
  show StableHlo.after hostOps0 (W0 m ρ c) (Proc.devRef .tc main_arg4) = W0 m ρ c (Proc.devRef .tc main_arg4)
  untouched
theorem atW1_arg5 : W1 m ρ c (Proc.devRef .tc main_arg5) = x5 m c := by
  show StableHlo.after hostOps0 (W0 m ρ c) (Proc.devRef .tc main_arg5) = W0 m ρ c (Proc.devRef .tc main_arg5)
  untouched
theorem atW1_arg6 : W1 m ρ c (Proc.devRef .tc main_arg6) = x6 m c := by
  show StableHlo.after hostOps0 (W0 m ρ c) (Proc.devRef .tc main_arg6) = W0 m ρ c (Proc.devRef .tc main_arg6)
  untouched
theorem atW1_arg8 : W1 m ρ c (Proc.devRef .tc main_arg8) = x8 m c := by
  show StableHlo.after hostOps0 (W0 m ρ c) (Proc.devRef .tc main_arg8) = W0 m ρ c (Proc.devRef .tc main_arg8)
  untouched

/-! ## After the first projection -/

theorem W2_v1 : W2 m ρ c (Proc.devRef .tc main_v1) = W1 m ρ c (Proc.devRef .tc main_v1) :=
  W2_of_ne m ρ c main_v1 (by decide)
theorem W2_v3 : W2 m ρ c (Proc.devRef .tc main_v3) = W1 m ρ c (Proc.devRef .tc main_v3) :=
  W2_of_ne m ρ c main_v3 (by decide)
theorem W2_arg2 : W2 m ρ c (Proc.devRef .tc main_arg2) = W1 m ρ c (Proc.devRef .tc main_arg2) :=
  W2_of_ne m ρ c main_arg2 (by decide)
theorem W2_arg3 : W2 m ρ c (Proc.devRef .tc main_arg3) = W1 m ρ c (Proc.devRef .tc main_arg3) :=
  W2_of_ne m ρ c main_arg3 (by decide)
theorem W2_arg4 : W2 m ρ c (Proc.devRef .tc main_arg4) = W1 m ρ c (Proc.devRef .tc main_arg4) :=
  W2_of_ne m ρ c main_arg4 (by decide)
theorem W2_arg5 : W2 m ρ c (Proc.devRef .tc main_arg5) = W1 m ρ c (Proc.devRef .tc main_arg5) :=
  W2_of_ne m ρ c main_arg5 (by decide)
theorem W2_arg6 : W2 m ρ c (Proc.devRef .tc main_arg6) = W1 m ρ c (Proc.devRef .tc main_arg6) :=
  W2_of_ne m ρ c main_arg6 (by decide)
theorem W2_arg8 : W2 m ρ c (Proc.devRef .tc main_arg8) = W1 m ρ c (Proc.devRef .tc main_arg8) :=
  W2_of_ne m ρ c main_arg8 (by decide)
theorem atW2_v1 : W2 m ρ c (Proc.devRef .tc main_v1) = val_main_v1 (F := Ideal) (x7 m c) :=
  (W2_v1 m ρ c).trans (atW1_v1 m ρ c)
theorem atW2_v3 : W2 m ρ c (Proc.devRef .tc main_v3) = val_main_v3 (F := Ideal) (x7 m c) :=
  (W2_v3 m ρ c).trans (atW1_v3 m ρ c)
theorem atW2_arg2 : W2 m ρ c (Proc.devRef .tc main_arg2) = x2 m c :=
  (W2_arg2 m ρ c).trans (atW1_arg2 m ρ c)
theorem atW2_arg3 : W2 m ρ c (Proc.devRef .tc main_arg3) = x3 m c :=
  (W2_arg3 m ρ c).trans (atW1_arg3 m ρ c)
theorem atW2_arg4 : W2 m ρ c (Proc.devRef .tc main_arg4) = x4 m c :=
  (W2_arg4 m ρ c).trans (atW1_arg4 m ρ c)
theorem atW2_arg5 : W2 m ρ c (Proc.devRef .tc main_arg5) = x5 m c :=
  (W2_arg5 m ρ c).trans (atW1_arg5 m ρ c)
theorem atW2_arg6 : W2 m ρ c (Proc.devRef .tc main_arg6) = x6 m c :=
  (W2_arg6 m ρ c).trans (atW1_arg6 m ρ c)
theorem atW2_arg8 : W2 m ρ c (Proc.devRef .tc main_arg8) = x8 m c :=
  (W2_arg8 m ρ c).trans (atW1_arg8 m ρ c)

/-- The projected features. -/
theorem atW2_v4 : W2 m ρ c (Proc.devRef .tc main_v4) = val_main_v4 (F := Ideal) (x0 m c) (x1 m c) := by
  refine (W2_arr m ρ c 2).trans ((Cert.KernelIdeal.Dense0.final (V1 m ρ) c).trans ?_)
  show dense (W1 m ρ c (Proc.devRef .tc main_arg0)) (W1 m ρ c (Proc.devRef .tc main_arg1)) = _
  rw [atW1_arg0 m ρ c, atW1_arg1 m ρ c]
  exact (dense_first _ _).symm

/-! ## After the first layer's host operations -/

theorem W3_v1 : W3 m ρ c (Proc.devRef .tc main_v1) = W2 m ρ c (Proc.devRef .tc main_v1) := by
  show StableHlo.after hostOps1 (W2 m ρ c) (Proc.devRef .tc main_v1) = W2 m ρ c (Proc.devRef .tc main_v1)
  untouched
theorem W3_v3 : W3 m ρ c (Proc.devRef .tc main_v3) = W2 m ρ c (Proc.devRef .tc main_v3) := by
  show StableHlo.after hostOps1 (W2 m ρ c) (Proc.devRef .tc main_v3) = W2 m ρ c (Proc.devRef .tc main_v3)
  untouched
theorem W3_v4 : W3 m ρ c (Proc.devRef .tc main_v4) = W2 m ρ c (Proc.devRef .tc main_v4) := by
  show StableHlo.after hostOps1 (W2 m ρ c) (Proc.devRef .tc main_v4) = W2 m ρ c (Proc.devRef .tc main_v4)
  untouched
theorem W3_arg3 : W3 m ρ c (Proc.devRef .tc main_arg3) = W2 m ρ c (Proc.devRef .tc main_arg3) := by
  show StableHlo.after hostOps1 (W2 m ρ c) (Proc.devRef .tc main_arg3) = W2 m ρ c (Proc.devRef .tc main_arg3)
  untouched
theorem W3_arg4 : W3 m ρ c (Proc.devRef .tc main_arg4) = W2 m ρ c (Proc.devRef .tc main_arg4) := by
  show StableHlo.after hostOps1 (W2 m ρ c) (Proc.devRef .tc main_arg4) = W2 m ρ c (Proc.devRef .tc main_arg4)
  untouched
theorem W3_arg5 : W3 m ρ c (Proc.devRef .tc main_arg5) = W2 m ρ c (Proc.devRef .tc main_arg5) := by
  show StableHlo.after hostOps1 (W2 m ρ c) (Proc.devRef .tc main_arg5) = W2 m ρ c (Proc.devRef .tc main_arg5)
  untouched
theorem W3_arg6 : W3 m ρ c (Proc.devRef .tc main_arg6) = W2 m ρ c (Proc.devRef .tc main_arg6) := by
  show StableHlo.after hostOps1 (W2 m ρ c) (Proc.devRef .tc main_arg6) = W2 m ρ c (Proc.devRef .tc main_arg6)
  untouched
theorem W3_arg8 : W3 m ρ c (Proc.devRef .tc main_arg8) = W2 m ρ c (Proc.devRef .tc main_arg8) := by
  show StableHlo.after hostOps1 (W2 m ρ c) (Proc.devRef .tc main_arg8) = W2 m ρ c (Proc.devRef .tc main_arg8)
  untouched
theorem atW3_v1 : W3 m ρ c (Proc.devRef .tc main_v1) = val_main_v1 (F := Ideal) (x7 m c) :=
  (W3_v1 m ρ c).trans (atW2_v1 m ρ c)
theorem atW3_v3 : W3 m ρ c (Proc.devRef .tc main_v3) = val_main_v3 (F := Ideal) (x7 m c) :=
  (W3_v3 m ρ c).trans (atW2_v3 m ρ c)
theorem atW3_arg3 : W3 m ρ c (Proc.devRef .tc main_arg3) = x3 m c :=
  (W3_arg3 m ρ c).trans (atW2_arg3 m ρ c)
theorem atW3_arg4 : W3 m ρ c (Proc.devRef .tc main_arg4) = x4 m c :=
  (W3_arg4 m ρ c).trans (atW2_arg4 m ρ c)
theorem atW3_arg5 : W3 m ρ c (Proc.devRef .tc main_arg5) = x5 m c :=
  (W3_arg5 m ρ c).trans (atW2_arg5 m ρ c)
theorem atW3_arg6 : W3 m ρ c (Proc.devRef .tc main_arg6) = x6 m c :=
  (W3_arg6 m ρ c).trans (atW2_arg6 m ρ c)
theorem atW3_arg8 : W3 m ρ c (Proc.devRef .tc main_arg8) = x8 m c :=
  (W3_arg8 m ρ c).trans (atW2_arg8 m ρ c)
theorem atW3_v4 : W3 m ρ c (Proc.devRef .tc main_v4) = val_main_v4 (F := Ideal) (x0 m c) (x1 m c) :=
  (W3_v4 m ρ c).trans (atW2_v4 m ρ c)

/-- The aggregated messages. -/
theorem atW3_v39 : W3 m ρ c (Proc.devRef .tc main_v39) = val_main_v39 (F := Ideal) (x0 m c) (x1 m c) (x7 m c) := by
  show StableHlo.after hostOps1 (W2 m ρ c) (Proc.devRef .tc main_v39) = _
  simp only [hostOps1]
  after_results_simp
  simp only [atW2_v1 m ρ c, atW2_v3 m ρ c, atW2_v4 m ρ c]
  rfl

/-- The column of squared inverse root degrees, at (r, 0). -/
theorem atW3_v41 (r : Fin 40000) :
    V3 m ρ c main_v41 (ix2 r (0 : Fin 1)) = val_main_v40 (F := Ideal) (x7 m c) (ix1 r) := by
  have h : W3 m ρ c (Proc.devRef .tc main_v41)
      = shapeCast S40000x1 (val_main_v40 (F := Ideal) (x7 m c)) shapeCasts_S40000_S40000x1 := by
    show StableHlo.after hostOps1 (W2 m ρ c) (Proc.devRef .tc main_v41) = _
    simp only [hostOps1]
    after_results_simp
    simp only [atW2_v3 m ρ c]
    rfl
  show W3 m ρ c (Proc.devRef .tc main_v41) (ix2 r (0 : Fin 1)) = _
  rw [h]
  exact Cert.Layout.cast_col _ _ r 0

/-- The bias row, at (0, q). -/
theorem atW3_v42 (q : Fin 128) : V3 m ρ c main_v42 (ix2 (0 : Fin 1) q) = x2 m c (ix1 q) := by
  have h : W3 m ρ c (Proc.devRef .tc main_v42) = shapeCast S1x128 (x2 m c) shapeCasts_S128_S1x128 := by
    show StableHlo.after hostOps1 (W2 m ρ c) (Proc.devRef .tc main_v42) = _
    simp only [hostOps1]
    after_results_simp
    simp only [atW2_arg2 m ρ c]
    rfl
  show W3 m ρ c (Proc.devRef .tc main_v42) (ix2 (0 : Fin 1) q) = _
  rw [h]
  exact Cert.Lib.Rows.shapeCast_vec_row_apply _ _ q

/-! ## After the first layer's closing step -/

theorem W4_v1 : W4 m ρ c (Proc.devRef .tc main_v1) = W3 m ρ c (Proc.devRef .tc main_v1) :=
  W4_of_ne m ρ c main_v1 (by decide)
theorem W4_v3 : W4 m ρ c (Proc.devRef .tc main_v3) = W3 m ρ c (Proc.devRef .tc main_v3) :=
  W4_of_ne m ρ c main_v3 (by decide)
theorem W4_arg3 : W4 m ρ c (Proc.devRef .tc main_arg3) = W3 m ρ c (Proc.devRef .tc main_arg3) :=
  W4_of_ne m ρ c main_arg3 (by decide)
theorem W4_arg4 : W4 m ρ c (Proc.devRef .tc main_arg4) = W3 m ρ c (Proc.devRef .tc main_arg4) :=
  W4_of_ne m ρ c main_arg4 (by decide)
theorem W4_arg5 : W4 m ρ c (Proc.devRef .tc main_arg5) = W3 m ρ c (Proc.devRef .tc main_arg5) :=
  W4_of_ne m ρ c main_arg5 (by decide)
theorem W4_arg6 : W4 m ρ c (Proc.devRef .tc main_arg6) = W3 m ρ c (Proc.devRef .tc main_arg6) :=
  W4_of_ne m ρ c main_arg6 (by decide)
theorem W4_arg8 : W4 m ρ c (Proc.devRef .tc main_arg8) = W3 m ρ c (Proc.devRef .tc main_arg8) :=
  W4_of_ne m ρ c main_arg8 (by decide)
theorem atW4_v1 : W4 m ρ c (Proc.devRef .tc main_v1) = val_main_v1 (F := Ideal) (x7 m c) :=
  (W4_v1 m ρ c).trans (atW3_v1 m ρ c)
theorem atW4_v3 : W4 m ρ c (Proc.devRef .tc main_v3) = val_main_v3 (F := Ideal) (x7 m c) :=
  (W4_v3 m ρ c).trans (atW3_v3 m ρ c)
theorem atW4_arg3 : W4 m ρ c (Proc.devRef .tc main_arg3) = x3 m c :=
  (W4_arg3 m ρ c).trans (atW3_arg3 m ρ c)
theorem atW4_arg4 : W4 m ρ c (Proc.devRef .tc main_arg4) = x4 m c :=
  (W4_arg4 m ρ c).trans (atW3_arg4 m ρ c)
theorem atW4_arg5 : W4 m ρ c (Proc.devRef .tc main_arg5) = x5 m c :=
  (W4_arg5 m ρ c).trans (atW3_arg5 m ρ c)
theorem atW4_arg6 : W4 m ρ c (Proc.devRef .tc main_arg6) = x6 m c :=
  (W4_arg6 m ρ c).trans (atW3_arg6 m ρ c)
theorem atW4_arg8 : W4 m ρ c (Proc.devRef .tc main_arg8) = x8 m c :=
  (W4_arg8 m ρ c).trans (atW3_arg8 m ρ c)

/-- The first layer's output. -/
theorem atW4_v43 :
    W4 m ρ c (Proc.devRef .tc main_v43) = val_main_v48 (F := Ideal) (x0 m c) (x1 m c) (x2 m c) (x7 m c) := by
  refine (W4_arr m ρ c 4).trans ((Cert.KernelIdeal.Finish1.final (V3 m ρ) (val_main_v40 (F := Ideal) (x7 m c)) (x2 m c) c
    (atW3_v41 m ρ c) (atW3_v42 m ρ c)).trans ?_)
  show finish (W3 m ρ c (Proc.devRef .tc main_v39)) (W3 m ρ c (Proc.devRef .tc main_v4)) _ _ = _
  rw [atW3_v39 m ρ c, atW3_v4 m ρ c]
  exact (finish_first _ _ _ _).symm

/-! ## After the second projection -/

theorem W5_v1 : W5 m ρ c (Proc.devRef .tc main_v1) = W4 m ρ c (Proc.devRef .tc main_v1) :=
  W5_of_ne m ρ c main_v1 (by decide)
theorem W5_v3 : W5 m ρ c (Proc.devRef .tc main_v3) = W4 m ρ c (Proc.devRef .tc main_v3) :=
  W5_of_ne m ρ c main_v3 (by decide)
theorem W5_arg4 : W5 m ρ c (Proc.devRef .tc main_arg4) = W4 m ρ c (Proc.devRef .tc main_arg4) :=
  W5_of_ne m ρ c main_arg4 (by decide)
theorem W5_arg5 : W5 m ρ c (Proc.devRef .tc main_arg5) = W4 m ρ c (Proc.devRef .tc main_arg5) :=
  W5_of_ne m ρ c main_arg5 (by decide)
theorem W5_arg6 : W5 m ρ c (Proc.devRef .tc main_arg6) = W4 m ρ c (Proc.devRef .tc main_arg6) :=
  W5_of_ne m ρ c main_arg6 (by decide)
theorem W5_arg8 : W5 m ρ c (Proc.devRef .tc main_arg8) = W4 m ρ c (Proc.devRef .tc main_arg8) :=
  W5_of_ne m ρ c main_arg8 (by decide)
theorem atW5_v1 : W5 m ρ c (Proc.devRef .tc main_v1) = val_main_v1 (F := Ideal) (x7 m c) :=
  (W5_v1 m ρ c).trans (atW4_v1 m ρ c)
theorem atW5_v3 : W5 m ρ c (Proc.devRef .tc main_v3) = val_main_v3 (F := Ideal) (x7 m c) :=
  (W5_v3 m ρ c).trans (atW4_v3 m ρ c)
theorem atW5_arg4 : W5 m ρ c (Proc.devRef .tc main_arg4) = x4 m c :=
  (W5_arg4 m ρ c).trans (atW4_arg4 m ρ c)
theorem atW5_arg5 : W5 m ρ c (Proc.devRef .tc main_arg5) = x5 m c :=
  (W5_arg5 m ρ c).trans (atW4_arg5 m ρ c)
theorem atW5_arg6 : W5 m ρ c (Proc.devRef .tc main_arg6) = x6 m c :=
  (W5_arg6 m ρ c).trans (atW4_arg6 m ρ c)
theorem atW5_arg8 : W5 m ρ c (Proc.devRef .tc main_arg8) = x8 m c :=
  (W5_arg8 m ρ c).trans (atW4_arg8 m ρ c)

/-- The second layer's projected features. -/
theorem atW5_v44 :
    W5 m ρ c (Proc.devRef .tc main_v44) = val_main_v49 (F := Ideal) (x0 m c) (x1 m c) (x2 m c) (x3 m c) (x7 m c) := by
  refine (W5_arr m ρ c 2).trans ((Cert.KernelIdeal.Dense2.final (V4 m ρ) c).trans ?_)
  show dense (W4 m ρ c (Proc.devRef .tc main_v43)) (W4 m ρ c (Proc.devRef .tc main_arg3)) = _
  rw [atW4_v43 m ρ c, atW4_arg3 m ρ c]
  exact (dense_second _ _ _ _ _).symm

/-! ## After the second layer's host operations -/

theorem W6_v44 : W6 m ρ c (Proc.devRef .tc main_v44) = W5 m ρ c (Proc.devRef .tc main_v44) := by
  show StableHlo.after hostOps3 (W5 m ρ c) (Proc.devRef .tc main_v44) = W5 m ρ c (Proc.devRef .tc main_v44)
  untouched
theorem W6_arg5 : W6 m ρ c (Proc.devRef .tc main_arg5) = W5 m ρ c (Proc.devRef .tc main_arg5) := by
  show StableHlo.after hostOps3 (W5 m ρ c) (Proc.devRef .tc main_arg5) = W5 m ρ c (Proc.devRef .tc main_arg5)
  untouched
theorem W6_arg6 : W6 m ρ c (Proc.devRef .tc main_arg6) = W5 m ρ c (Proc.devRef .tc main_arg6) := by
  show StableHlo.after hostOps3 (W5 m ρ c) (Proc.devRef .tc main_arg6) = W5 m ρ c (Proc.devRef .tc main_arg6)
  untouched
theorem W6_arg8 : W6 m ρ c (Proc.devRef .tc main_arg8) = W5 m ρ c (Proc.devRef .tc main_arg8) := by
  show StableHlo.after hostOps3 (W5 m ρ c) (Proc.devRef .tc main_arg8) = W5 m ρ c (Proc.devRef .tc main_arg8)
  untouched
theorem atW6_arg5 : W6 m ρ c (Proc.devRef .tc main_arg5) = x5 m c :=
  (W6_arg5 m ρ c).trans (atW5_arg5 m ρ c)
theorem atW6_arg6 : W6 m ρ c (Proc.devRef .tc main_arg6) = x6 m c :=
  (W6_arg6 m ρ c).trans (atW5_arg6 m ρ c)
theorem atW6_arg8 : W6 m ρ c (Proc.devRef .tc main_arg8) = x8 m c :=
  (W6_arg8 m ρ c).trans (atW5_arg8 m ρ c)
theorem atW6_v44 :
    W6 m ρ c (Proc.devRef .tc main_v44) = val_main_v49 (F := Ideal) (x0 m c) (x1 m c) (x2 m c) (x3 m c) (x7 m c) :=
  (W6_v44 m ρ c).trans (atW5_v44 m ρ c)

/-- The second layer's aggregated messages. -/
theorem atW6_v79 :
    W6 m ρ c (Proc.devRef .tc main_v79) = val_main_v84 (F := Ideal) (x0 m c) (x1 m c) (x2 m c) (x3 m c) (x7 m c) := by
  show StableHlo.after hostOps3 (W5 m ρ c) (Proc.devRef .tc main_v79) = _
  simp only [hostOps3]
  after_results_simp
  simp only [atW5_v1 m ρ c, atW5_v3 m ρ c, atW5_v44 m ρ c]
  rfl

/-- The column of squared inverse root degrees again, at (r, 0). -/
theorem atW6_v81 (r : Fin 40000) :
    V6 m ρ c main_v81 (ix2 r (0 : Fin 1)) = val_main_v85 (F := Ideal) (x7 m c) (ix1 r) := by
  have h : W6 m ρ c (Proc.devRef .tc main_v81)
      = shapeCast S40000x1 (val_main_v85 (F := Ideal) (x7 m c)) shapeCasts_S40000_S40000x1 := by
    show StableHlo.after hostOps3 (W5 m ρ c) (Proc.devRef .tc main_v81) = _
    simp only [hostOps3]
    after_results_simp
    simp only [atW5_v3 m ρ c]
    rfl
  show W6 m ρ c (Proc.devRef .tc main_v81) (ix2 r (0 : Fin 1)) = _
  rw [h]
  exact Cert.Layout.cast_col _ _ r 0

/-- The second bias row, at (0, q). -/
theorem atW6_v82 (q : Fin 128) : V6 m ρ c main_v82 (ix2 (0 : Fin 1) q) = x4 m c (ix1 q) := by
  have h : W6 m ρ c (Proc.devRef .tc main_v82) = shapeCast S1x128 (x4 m c) shapeCasts_S128_S1x128 := by
    show StableHlo.after hostOps3 (W5 m ρ c) (Proc.devRef .tc main_v82) = _
    simp only [hostOps3]
    after_results_simp
    simp only [atW5_arg4 m ρ c]
    rfl
  show W6 m ρ c (Proc.devRef .tc main_v82) (ix2 (0 : Fin 1) q) = _
  rw [h]
  exact Cert.Lib.Rows.shapeCast_vec_row_apply _ _ q

/-! ## After the second layer's closing step -/

theorem W7_arg5 : W7 m ρ c (Proc.devRef .tc main_arg5) = W6 m ρ c (Proc.devRef .tc main_arg5) :=
  W7_of_ne m ρ c main_arg5 (by decide)
theorem W7_arg6 : W7 m ρ c (Proc.devRef .tc main_arg6) = W6 m ρ c (Proc.devRef .tc main_arg6) :=
  W7_of_ne m ρ c main_arg6 (by decide)
theorem W7_arg8 : W7 m ρ c (Proc.devRef .tc main_arg8) = W6 m ρ c (Proc.devRef .tc main_arg8) :=
  W7_of_ne m ρ c main_arg8 (by decide)
theorem atW7_arg5 : W7 m ρ c (Proc.devRef .tc main_arg5) = x5 m c :=
  (W7_arg5 m ρ c).trans (atW6_arg5 m ρ c)
theorem atW7_arg6 : W7 m ρ c (Proc.devRef .tc main_arg6) = x6 m c :=
  (W7_arg6 m ρ c).trans (atW6_arg6 m ρ c)
theorem atW7_arg8 : W7 m ρ c (Proc.devRef .tc main_arg8) = x8 m c :=
  (W7_arg8 m ρ c).trans (atW6_arg8 m ρ c)

/-- The second layer's output. -/
theorem atW7_v83 :
    W7 m ρ c (Proc.devRef .tc main_v83)
      = val_main_v93 (F := Ideal) (x0 m c) (x1 m c) (x2 m c) (x3 m c) (x4 m c) (x7 m c) := by
  refine (W7_arr m ρ c 4).trans ((Cert.KernelIdeal.Finish3.final (V6 m ρ) (val_main_v85 (F := Ideal) (x7 m c)) (x4 m c) c
    (atW6_v81 m ρ c) (atW6_v82 m ρ c)).trans ?_)
  show finish (W6 m ρ c (Proc.devRef .tc main_v79)) (W6 m ρ c (Proc.devRef .tc main_v44)) _ _ = _
  rw [atW6_v79 m ρ c, atW6_v44 m ρ c]
  exact (finish_second _ _ _ _ _ _).symm

/-! ## After the mean pooling -/

theorem W8_arg5 : W8 m ρ c (Proc.devRef .tc main_arg5) = W7 m ρ c (Proc.devRef .tc main_arg5) := by
  show StableHlo.after hostOps4 (W7 m ρ c) (Proc.devRef .tc main_arg5) = W7 m ρ c (Proc.devRef .tc main_arg5)
  untouched
theorem atW8_arg5 : W8 m ρ c (Proc.devRef .tc main_arg5) = x5 m c :=
  (W8_arg5 m ρ c).trans (atW7_arg5 m ρ c)

/-- The pooled means. -/
theorem atW8_v95 :
    W8 m ρ c (Proc.devRef .tc main_v95)
      = val_main_v105 (F := Ideal) (x0 m c) (x1 m c) (x2 m c) (x3 m c) (x4 m c) (x7 m c) (x8 m c) := by
  show StableHlo.after hostOps4 (W7 m ρ c) (Proc.devRef .tc main_v95) = _
  simp only [hostOps4]
  after_results_simp
  simp only [atW7_v83 m ρ c, atW7_arg8 m ρ c]
  rfl

/-- The output bias row, at (0, q). -/
theorem atW8_v96 (q : Fin 64) : V8 m ρ c main_v96 (ix2 (0 : Fin 1) q) = x6 m c (ix1 q) := by
  have h : W8 m ρ c (Proc.devRef .tc main_v96) = shapeCast S1x64 (x6 m c) shapeCasts_S64_S1x64 := by
    show StableHlo.after hostOps4 (W7 m ρ c) (Proc.devRef .tc main_v96) = _
    simp only [hostOps4]
    after_results_simp
    simp only [atW7_arg6 m ρ c]
    rfl
  show W8 m ρ c (Proc.devRef .tc main_v96) (ix2 (0 : Fin 1) q) = _
  rw [h]
  exact Cert.Lib.Rows.shapeCast_vec_row_apply _ _ q

/-! ## At the end -/

/-- The result buffer ends at the reference's result of the argument arrays. -/
theorem result :
    W9 m ρ c (Proc.devRef .tc main_v97)
      = val_main_v114 (F := Ideal) (x0 m c) (x1 m c) (x2 m c) (x3 m c) (x4 m c) (x5 m c) (x6 m c) (x7 m c) (x8 m c) := by
  refine (W9_arr m ρ c 3).trans ((Cert.KernelIdeal.Head4.final (V8 m ρ) (x6 m c) c (atW8_v96 m ρ c)).trans ?_)
  show head (W8 m ρ c (Proc.devRef .tc main_v95)) (W8 m ρ c (Proc.devRef .tc main_arg5)) _ = _
  rw [atW8_v95 m ρ c, atW8_arg5 m ρ c]
  exact (head_eq _ _ _ _ _ _ _ _ _).symm

end Cert.KernelIdeal.Boundaries

end
-- ==== Proof.lean ====
/-
  A two-layer graph convolution with mean pooling and a normalized linear head: the kernel against its reference,
  over the extended reals.

  Both programs compute, from node features x, weights W1, W2, Wl, biases b1, b2, bl, an edge list and a graph
  assignment: h = x·W1; the inverse root degrees d from the edge list; the aggregated messages agg (a gather of h
  and of d along the edges, a product, a scatter-add); relu ((agg + d²·h) + b1); the same layer again with W2 and
  b2; the per-graph sums divided by the per-graph counts; lin = g·Wl + bl; and lin divided row by row by
  max (‖row‖, ε).  The kernel does the two products, the two rectified sums and the head in five pallas regions,
  block by block, and the gathers, scatter-adds and the pooling on the host; the reference does everything on the
  host.  At the ideal values a change of float format is the identity, a product into a zero accumulator is the plain
  sum over the contracted axis and a lane sum is the plain sum, so each region leaves exactly the array the
  reference computes at that place, and the host operations between are the reference's own, one for one: the two
  results are one term of the argument arrays.  No law that needs finite numbers is used; the precondition is never
  opened.

  The frames: the kernel's two are the runs of its segments; the reference's is its run with the result dropped.
  The idealization rewrote no operation, so there is nothing to preserve.
-/
import proofs.«151292_j49538152792352_1_alg».proof.Defs
import proofs.«151292_j49538152792352_1_alg».proof.Proof.Gen.Kernel
import proofs.«151292_j49538152792352_1_alg».proof.Proof.Gen.Kernel.Frame
import proofs.«151292_j49538152792352_1_alg».proof.Proof.Gen.KernelIdeal
import proofs.«151292_j49538152792352_1_alg».proof.Proof.Gen.KernelIdeal.Frame
import proofs.«151292_j49538152792352_1_alg».proof.Proof.Gen.ReferenceIdeal
import proofs.«151292_j49538152792352_1_alg».proof.Proof.Gen.Pre_finite_inputs
import proofs.«151292_j49538152792352_1_alg».proof.Proof.Gen.ReferenceIdeal.Run
import proofs.«151292_j49538152792352_1_alg».proof.Proof.Gen.ReferenceIdeal.Read
import proofs.«151292_j49538152792352_1_alg».proof.Proof.KernelRun
import proofs.«151292_j49538152792352_1_alg».proof.Proof.Boundaries
import Idealize.ShloMosaic.Adequacy
import Idealize.ShloMosaic.Init

noncomputable section

namespace Cert.Proof

open Idealize.ShloMosaic Idealize.SL.Sem

/-- The kernel as printed runs and leaves its arguments. -/
theorem frame_kernel : Cert.frame_Kernel := fun m ρ _ => Cert.Kernel.Gen.frame m ρ

/-- The idealized kernel runs and leaves its arguments. -/
theorem frame_kernel_ideal : Cert.frame_KernelIdeal := fun m ρ _ => Cert.KernelIdeal.Gen.frame m ρ

/-- The idealized reference runs and leaves its arguments: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the reference's last stage of the argument arrays: the kernel by the walk through
    its segments, the reference by its run read back; the argument arrays agree. -/
theorem algebraic : Cert.algebraic_KernelIdeal_ReferenceIdeal := by
  intro m ρ m' ρ' _ hagree
  refine ⟨fun c => Cert.ReferenceIdeal.Read.val_main_v114 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Boundaries.result m ρ c), (h c).2⟩)
      (Cert.KernelIdeal.Whole.run_named (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8⟩ := hagree c
    rw [(h c).1, Cert.ReferenceIdeal.Read.val_main_v114_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
